-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x512x512 : Shape := ⟨4, ![4, 64, 512, 512]⟩
abbrev S1024x512 : Shape := ⟨2, ![1024, 512]⟩
abbrev S1024 : Shape := ⟨1, ![1024]⟩
abbrev S64x1024 : Shape := ⟨2, ![64, 1024]⟩
abbrev S512x1024 : Shape := ⟨2, ![512, 1024]⟩
abbrev S1 : Shape := ⟨1, ![1]⟩
abbrev S_ : Shape := ⟨0, ![]⟩

class Facts : Prop where
  bcast_S_S4x64x512x512 : S_.BroadcastsInDim S4x64x512x512 (![] : Fin 0 → Fin S4x64x512x512.rank)
  reducesTo_S4x64x512x512_S_d0_1_2_3 : S4x64x512x512.ReducesTo [0, 1, 2, 3] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S64x1024 : S_.BroadcastsInDim S64x1024 (![] : Fin 0 → Fin S64x1024.rank)
  reducesTo_S64x1024_S_d0_1 : S64x1024.ReducesTo [0, 1] S_
  bcast_S_S512x1024 : S_.BroadcastsInDim S512x1024 (![] : Fin 0 → Fin S512x1024.rank)
  reducesTo_S512x1024_S_d0_1 : S512x1024.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S512x1024 .f32) (main_arg5 : FVec F S1 .f32) (main_arg6 : FVec F S1 .f32) (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  let main_v19 : FVec F S512x1024 .f32 := Host.absf main_arg4
  let main_cst_6 : FVec F S_ .f32 := constant S_ .f32 0x7F800000#32
  let main_v20 : FVec F S512x1024 .f32 := broadcastInDim S512x1024 ![] bcast_S_S512x1024 main_cst_6
  let main_v21 : IVec S512x1024 1 := cmpf .olt main_v19 main_v20
  let main_c_7 : IVec S_ 1 := constantI S_ 1 1#1
  let main_v22 : IVec S_ 1 := (fun x v => Host.reduce IntOp.andi x v reducesTo_S512x1024_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S4x64x512x512 .f32) (main_arg1 : FVec F S1024x512 .f32) (main_arg2 : FVec F S1024 .f32) (main_arg3 : FVec F S64x1024 .f32) (main_arg4 : FVec F S512x1024 .f32) (main_arg5 : FVec F S1 .f32) (main_arg6 : FVec F S1 .f32) : IVec S_ 1 :=
  let main_v0 : FVec F S4x64x512x512 .f32 := Host.absf main_arg0
  let main_cst : FVec F S_ .f32 := constant S_ .f32 0x7F800000#32
  let main_v1 : FVec F S4x64x512x512 .f32 := broadcastInDim S4x64x512x512 ![] bcast_S_S4x64x512x512 main_cst
  let main_v2 : IVec S4x64x512x512 1 := cmpf .olt main_v0 main_v1
  let main_c : IVec S_ 1 := constantI S_ 1 1#1
  let main_v3 : IVec S_ 1 := (fun x v => Host.reduce IntOp.andi x v reducesTo_S4x64x512x512_S_d0_1_2_3 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S64x1024 .f32 := Host.absf main_arg3
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_arg4 main_arg5 main_arg6 main_v13 main_v16
-- ==== Kernel.lean ====
abbrev S4x64x512x512 : Shape := ⟨4, ![4, 64, 512, 512]⟩
abbrev S1024x512 : Shape := ⟨2, ![1024, 512]⟩
abbrev S1024 : Shape := ⟨1, ![1024]⟩
abbrev S64x1024 : Shape := ⟨2, ![64, 1024]⟩
abbrev S512x1024 : Shape := ⟨2, ![512, 1024]⟩
abbrev S1 : Shape := ⟨1, ![1]⟩
abbrev S1x1 : Shape := ⟨2, ![1, 1]⟩
abbrev S1x1024 : Shape := ⟨2, ![1, 1024]⟩
abbrev S2048x64x1024 : Shape := ⟨3, ![2048, 64, 1024]⟩
abbrev S1x64x64x512 : Shape := ⟨4, ![1, 64, 64, 512]⟩
abbrev S64x64x1024 : Shape := ⟨3, ![64, 64, 1024]⟩
abbrev S64x64x512 : Shape := ⟨3, ![64, 64, 512]⟩
abbrev S4096x512 : Shape := ⟨2, ![4096, 512]⟩
abbrev S4096x1024 : Shape := ⟨2, ![4096, 1024]⟩
abbrev S64x1x1024 : Shape := ⟨3, ![64, 1, 1024]⟩
abbrev S1x64x1024 : Shape := ⟨3, ![1, 64, 1024]⟩
abbrev S4x32768x1024 : Shape := ⟨3, ![4, 32768, 1024]⟩

abbrev nBuf : Space → Nat
  | .hbm => 22
  | .vmem => 8
  | .smem => 0
  | _ => 0

abbrev bufTy : (tb : Table) → Fin (tcTables nBuf tb) → BufTy
  | .hbm, ⟨0, _⟩ => ⟨S4x64x512x512, .f32⟩
  | .hbm, ⟨1, _⟩ => ⟨S1024x512, .f32⟩
  | .hbm, ⟨2, _⟩ => ⟨S1024, .f32⟩
  | .hbm, ⟨3, _⟩ => ⟨S64x1024, .f32⟩
  | .hbm, ⟨4, _⟩ => ⟨S512x1024, .f32⟩
  | .hbm, ⟨5, _⟩ => ⟨S1, .f32⟩
  | .hbm, ⟨6, _⟩ => ⟨S1, .f32⟩
  | .hbm, ⟨7, _⟩ => ⟨S512x1024, .f32⟩
  | .hbm, ⟨8, _⟩ => ⟨S512x1024, .bf16⟩
  | .hbm, ⟨9, _⟩ => ⟨S1x1, .f32⟩
  | .hbm, ⟨10, _⟩ => ⟨S64x1024, .f32⟩
  | .hbm, ⟨11, _⟩ => ⟨S64x1024, .f32⟩
  | .hbm, ⟨12, _⟩ => ⟨S64x1024, .bf16⟩
  | .hbm, ⟨13, _⟩ => ⟨S1x1024, .f32⟩
  | .hbm, ⟨14, _⟩ => ⟨S1x1, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S512x1024, .bf16⟩
  | .hbm, ⟨20, _⟩ => ⟨S2048x64x1024, .f32⟩
  | .hbm, ⟨21, _⟩ => ⟨S4x32768x1024, .f32⟩
  | .local _ .vmem, ⟨0, _⟩ => ⟨S1x64x64x512, .f32⟩
  | .local _ .vmem, ⟨1, _⟩ => ⟨S1x64x64x512, .f32⟩
  | .local _ .vmem, ⟨2, _⟩ => ⟨S512x1024, .bf16⟩
  | .local _ .vmem, ⟨3, _⟩ => ⟨S64x1024, .bf16⟩
  | .local _ .vmem, ⟨4, _⟩ => ⟨S64x1024, .bf16⟩
  | .local _ .vmem, ⟨5, _⟩ => ⟨S64x1024, .bf16⟩
  | .local _ .vmem, ⟨6, _⟩ => ⟨S64x64x1024, .f32⟩
  | .local _ .vmem, ⟨7, _⟩ => ⟨S64x64x1024, .f32⟩
  | _, _ => ⟨S4x64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x64x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S64x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S1024x512_S512x1024_1_0 : S1024x512.Transposes [1, 0] S512x1024
  bitsLt_bf16_f32 : FTy.bits .bf16 < FTy.bits .f32
  bcast_S1_S1x1_1 : S1.BroadcastsInDim S1x1 (![1] : Fin 1 → Fin S1x1.rank)
  bcast_S1x1_S64x1024_0_1 : S1x1.BroadcastsInDim S64x1024 (![0, 1] : Fin 2 → Fin S64x1024.rank)
  bcast_S1024_S1x1024_1 : S1024.BroadcastsInDim S1x1024 (![1] : Fin 1 → Fin S1x1024.rank)
  bcast_S1x1_S512x1024_0_1 : S1x1.BroadcastsInDim S512x1024 (![0, 1] : Fin 2 → Fin S512x1024.rank)
  bcast_S1x1024_S512x1024_0_1 : S1x1024.BroadcastsInDim S512x1024 (![0, 1] : Fin 2 → Fin S512x1024.rank)
  inb_S1x64x64x512_S1x64x64x512_0_0_0_0 : ∀ a, (![0, 0, 0, 0] : Fin 4 → Nat) a + S1x64x64x512.size a ≤ S1x64x64x512.size a
  h_S1x64x64x512 : 0 < S1x64x64x512.numel
  shapeCasts_S1x64x64x512_S64x64x512 : S1x64x64x512.ShapeCasts S64x64x512
  transposes_S64x64x512_p1_0_2_S64x64x512 : S64x64x512.Transposes [1, 0, 2] S64x64x512
  shapeCasts_S64x64x512_S4096x512 : S64x64x512.ShapeCasts S4096x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S4096x1024_S64x64x1024 : S4096x1024.ShapeCasts S64x64x1024
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  shapeCasts_S64x1024_S64x1x1024 : S64x1024.ShapeCasts S64x1x1024
  broadcasts_S64x1x1024_S64x64x1024 : S64x1x1024.Broadcasts S64x64x1024
  shapeCasts_S64x1024_S1x64x1024 : S64x1024.ShapeCasts S1x64x1024
  broadcasts_S1x64x1024_S64x64x1024 : S1x64x1024.Broadcasts S64x64x1024
  inb_S64x64x1024_S64x64x1024_0_0_0 : ∀ a, (![0, 0, 0] : Fin 3 → Nat) a + S64x64x1024.size a ≤ S64x64x1024.size a
  h_S64x64x1024 : 0 < S64x64x1024.numel
  shapeCasts_S2048x64x1024_S4x32768x1024 : S2048x64x1024.ShapeCasts S4x32768x1024
  dot_S4096x512_S512x1024_S4096x1024_1_0_0_1_n_n_wf : DotDims.WF S4096x512 S512x1024 S4096x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x64x512.size a ≤ S4x64x512x512.size a
  hwx0_0 : ∀ i : grid0.Coords, EltTy.bits .f32 = 32 ∨ (Rect.block (s := S4x64x512x512) S1x64x64x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S64x1024.size a
  hwx0_2 : ∀ i : grid0.Coords, EltTy.bits .bf16 = 32 ∨ (Rect.block (s := S64x1024) S64x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S512x1024.size a
  hwx0_3 : ∀ i : grid0.Coords, EltTy.bits .bf16 = 32 ∨ (Rect.block (s := S512x1024) S64x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x64x1024.size a ≤ S2048x64x1024.size a
  hwx0_4 : ∀ i : grid0.Coords, EltTy.bits .f32 = 32 ∨ (Rect.block (s := S2048x64x1024) S64x64x1024.size (cc0_transform_4 i) (hinb0_4 i)).WholeWords (EltTy.packing .f32)

variable [Facts₀]

def dot_S4096x512_S512x1024_S4096x1024_1_0_0_1_n_n : DotDims S4096x512 S512x1024 S4096x1024 where
  lhsContracting := [1]
  rhsContracting := [0]
  lhsNonContracting := [0]
  rhsNonContracting := [1]
  lhsBatch := []
  rhsBatch := []
  wf := dot_S4096x512_S512x1024_S4096x1024_1_0_0_1_n_n_wf

abbrev win0_0 : Pipeline.Window sig grid0 :=
  Pipeline.Window.ofSpec (Memref.whole main_arg0) S1x64x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S64x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S64x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13) S64x64x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x64x512x512 : Shape := ⟨4, ![4, 64, 512, 512]⟩
abbrev S1024x512 : Shape := ⟨2, ![1024, 512]⟩
abbrev S1024 : Shape := ⟨1, ![1024]⟩
abbrev S64x1024 : Shape := ⟨2, ![64, 1024]⟩
abbrev S512x1024 : Shape := ⟨2, ![512, 1024]⟩
abbrev S1 : Shape := ⟨1, ![1]⟩
abbrev S4x64x512x1024 : Shape := ⟨4, ![4, 64, 512, 1024]⟩
abbrev S1x1x1x1024 : Shape := ⟨4, ![1, 1, 1, 1024]⟩
abbrev S512 : Shape := ⟨1, ![512]⟩
abbrev S64 : Shape := ⟨1, ![64]⟩
abbrev S_ : Shape := ⟨0, ![]⟩
abbrev S64x1 : Shape := ⟨2, ![64, 1]⟩
abbrev S1x1 : Shape := ⟨2, ![1, 1]⟩
abbrev S1x64x1x1024 : Shape := ⟨4, ![1, 64, 1, 1024]⟩
abbrev S1x1x1x1 : Shape := ⟨4, ![1, 1, 1, 1]⟩
abbrev S512x1 : Shape := ⟨2, ![512, 1]⟩
abbrev S1x1x512x1024 : Shape := ⟨4, ![1, 1, 512, 1024]⟩
abbrev S4x512x64x1024 : Shape := ⟨4, ![4, 512, 64, 1024]⟩
abbrev S4x32768x1024 : Shape := ⟨3, ![4, 32768, 1024]⟩

abbrev nBuf : Space → Nat
  | .hbm => 73
  | .vmem => 0
  | .smem => 0
  | _ => 0

abbrev bufTy : (tb : Table) → Fin (tcTables nBuf tb) → BufTy
  | .hbm, ⟨0, _⟩ => ⟨S4x64x512x512, .f32⟩
  | .hbm, ⟨1, _⟩ => ⟨S1024x512, .f32⟩
  | .hbm, ⟨2, _⟩ => ⟨S1024, .f32⟩
  | .hbm, ⟨3, _⟩ => ⟨S64x1024, .f32⟩
  | .hbm, ⟨4, _⟩ => ⟨S512x1024, .f32⟩
  | .hbm, ⟨5, _⟩ => ⟨S1, .f32⟩
  | .hbm, ⟨6, _⟩ => ⟨S1, .f32⟩
  | .hbm, ⟨7, _⟩ => ⟨S4x64x512x1024, .f32⟩
  | .hbm, ⟨8, _⟩ => ⟨S1x1x1x1024, .f32⟩
  | .hbm, ⟨9, _⟩ => ⟨S4x64x512x1024, .f32⟩
  | .hbm, ⟨10, _⟩ => ⟨S4x64x512x1024, .f32⟩
  | .hbm, ⟨11, _⟩ => ⟨S512, .i32⟩
  | .hbm, ⟨12, _⟩ => ⟨S64, .i32⟩
  | .hbm, ⟨13, _⟩ => ⟨S_, .i32⟩
  | .hbm, ⟨14, _⟩ => ⟨S64, .i32⟩
  | .hbm, ⟨15, _⟩ => ⟨S64, .i1⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S64, .i32⟩
  | .hbm, ⟨20, _⟩ => ⟨S64x1, .i32⟩
  | .hbm, ⟨21, _⟩ => ⟨S1, .i32⟩
  | .hbm, ⟨22, _⟩ => ⟨S_, .i32⟩
  | .hbm, ⟨23, _⟩ => ⟨S64x1, .i32⟩
  | .hbm, ⟨24, _⟩ => ⟨S64x1, .i1⟩
  | .hbm, ⟨25, _⟩ => ⟨S1x1, .i32⟩
  | .hbm, ⟨26, _⟩ => ⟨S64x1, .i32⟩
  | .hbm, ⟨27, _⟩ => ⟨S64x1, .i1⟩
  | .hbm, ⟨28, _⟩ => ⟨S64x1, .i1⟩
  | .hbm, ⟨29, _⟩ => ⟨S_, .i1⟩
  | .hbm, ⟨30, _⟩ => ⟨S64, .i1⟩
  | .hbm, ⟨31, _⟩ => ⟨S64x1024, .f32⟩
  | .hbm, ⟨32, _⟩ => ⟨S64x1024, .i1⟩
  | .hbm, ⟨33, _⟩ => ⟨S_, .f32⟩
  | .hbm, ⟨34, _⟩ => ⟨S64x1024, .f32⟩
  | .hbm, ⟨35, _⟩ => ⟨S64x1024, .f32⟩
  | .hbm, ⟨36, _⟩ => ⟨S1x64x1x1024, .f32⟩
  | .hbm, ⟨37, _⟩ => ⟨S1x1x1x1, .f32⟩
  | .hbm, ⟨38, _⟩ => ⟨S1x64x1x1024, .f32⟩
  | .hbm, ⟨39, _⟩ => ⟨S1x64x1x1024, .f32⟩
  | .hbm, ⟨40, _⟩ => ⟨S_, .i32⟩
  | .hbm, ⟨41, _⟩ => ⟨S512, .i32⟩
  | .hbm, ⟨42, _⟩ => ⟨S512, .i1⟩
  | .hbm, ⟨43, _⟩ => ⟨S_, .i32⟩
  | .hbm, ⟨44, _⟩ => ⟨S512, .i32⟩
  | .hbm, ⟨45, _⟩ => ⟨S512, .i32⟩
  | .hbm, ⟨46, _⟩ => ⟨S512, .i32⟩
  | .hbm, ⟨47, _⟩ => ⟨S512x1, .i32⟩
  | .hbm, ⟨48, _⟩ => ⟨S1, .i32⟩
  | .hbm, ⟨49, _⟩ => ⟨S_, .i32⟩
  | .hbm, ⟨50, _⟩ => ⟨S512x1, .i32⟩
  | .hbm, ⟨51, _⟩ => ⟨S512x1, .i1⟩
  | .hbm, ⟨52, _⟩ => ⟨S1x1, .i32⟩
  | .hbm, ⟨53, _⟩ => ⟨S512x1, .i32⟩
  | .hbm, ⟨54, _⟩ => ⟨S512x1, .i1⟩
  | .hbm, ⟨55, _⟩ => ⟨S512x1, .i1⟩
  | .hbm, ⟨56, _⟩ => ⟨S_, .i1⟩
  | .hbm, ⟨57, _⟩ => ⟨S512, .i1⟩
  | .hbm, ⟨58, _⟩ => ⟨S512x1024, .f32⟩
  | .hbm, ⟨59, _⟩ => ⟨S512x1024, .i1⟩
  | .hbm, ⟨60, _⟩ => ⟨S_, .f32⟩
  | .hbm, ⟨61, _⟩ => ⟨S512x1024, .f32⟩
  | .hbm, ⟨62, _⟩ => ⟨S512x1024, .f32⟩
  | .hbm, ⟨63, _⟩ => ⟨S1x1x512x1024, .f32⟩
  | .hbm, ⟨64, _⟩ => ⟨S1x1x1x1, .f32⟩
  | .hbm, ⟨65, _⟩ => ⟨S1x1x512x1024, .f32⟩
  | .hbm, ⟨66, _⟩ => ⟨S1x1x512x1024, .f32⟩
  | .hbm, ⟨67, _⟩ => ⟨S4x64x512x1024, .f32⟩
  | .hbm, ⟨68, _⟩ => ⟨S4x64x512x1024, .f32⟩
  | .hbm, ⟨69, _⟩ => ⟨S4x64x512x1024, .f32⟩
  | .hbm, ⟨70, _⟩ => ⟨S4x64x512x1024, .f32⟩
  | .hbm, ⟨71, _⟩ => ⟨S4x512x64x1024, .f32⟩
  | .hbm, ⟨72, _⟩ => ⟨S4x32768x1024, .f32⟩
  | _, _ => ⟨S4x64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩

abbrev nD : Nat := 1
abbrev τ : Topo := Topo.v7x

variable {F : FTy → Type} [FloatOps F]

class Facts₀ : Prop where
  bcast_S1024_S1x1x1x1024_3 : S1024.BroadcastsInDim S1x1x1x1024 (![3] : Fin 1 → Fin S1x1x1x1024.rank)
  bcast_S1x1x1x1024_S4x64x512x1024_0_1_2_3 : S1x1x1x1024.BroadcastsInDim S4x64x512x1024 (![0, 1, 2, 3] : Fin 4 → Fin S4x64x512x1024.rank)
  bcast_S_S64 : S_.BroadcastsInDim S64 (![] : Fin 0 → Fin S64.rank)
  bcast_S64_S64x1_0 : S64.BroadcastsInDim S64x1 (![0] : Fin 1 → Fin S64x1.rank)
  bcast_S_S64x1 : S_.BroadcastsInDim S64x1 (![] : Fin 0 → Fin S64x1.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  reducesTo_S64x1_S64_d1 : S64x1.ReducesTo [1] S64
  h_S_ : 0 < S_.numel
  bcast_S64_S64x1024_0 : S64.BroadcastsInDim S64x1024 (![0] : Fin 1 → Fin S64x1024.rank)
  bcast_S_S64x1024 : S_.BroadcastsInDim S64x1024 (![] : Fin 0 → Fin S64x1024.rank)
  bcast_S64x1024_S1x64x1x1024_1_3 : S64x1024.BroadcastsInDim S1x64x1x1024 (![1, 3] : Fin 2 → Fin S1x64x1x1024.rank)
  bcast_S1_S1x1x1x1_3 : S1.BroadcastsInDim S1x1x1x1 (![3] : Fin 1 → Fin S1x1x1x1.rank)
  bcast_S1x1x1x1_S1x64x1x1024_0_1_2_3 : S1x1x1x1.BroadcastsInDim S1x64x1x1024 (![0, 1, 2, 3] : Fin 4 → Fin S1x64x1x1024.rank)
  bcast_S_S512 : S_.BroadcastsInDim S512 (![] : Fin 0 → Fin S512.rank)
  bcast_S512_S512x1_0 : S512.BroadcastsInDim S512x1 (![0] : Fin 1 → Fin S512x1.rank)
  bcast_S_S512x1 : S_.BroadcastsInDim S512x1 (![] : Fin 0 → Fin S512x1.rank)
  bcast_S1x1_S512x1_0_1 : S1x1.BroadcastsInDim S512x1 (![0, 1] : Fin 2 → Fin S512x1.rank)
  reducesTo_S512x1_S512_d1 : S512x1.ReducesTo [1] S512
  bcast_S512_S512x1024_0 : S512.BroadcastsInDim S512x1024 (![0] : Fin 1 → Fin S512x1024.rank)
  bcast_S_S512x1024 : S_.BroadcastsInDim S512x1024 (![] : Fin 0 → Fin S512x1024.rank)
  bcast_S512x1024_S1x1x512x1024_2_3 : S512x1024.BroadcastsInDim S1x1x512x1024 (![2, 3] : Fin 2 → Fin S1x1x512x1024.rank)
  bcast_S1x1x1x1_S1x1x512x1024_0_1_2_3 : S1x1x1x1.BroadcastsInDim S1x1x512x1024 (![0, 1, 2, 3] : Fin 4 → Fin S1x1x512x1024.rank)
  bcast_S1x64x1x1024_S4x64x512x1024_0_1_2_3 : S1x64x1x1024.BroadcastsInDim S4x64x512x1024 (![0, 1, 2, 3] : Fin 4 → Fin S4x64x512x1024.rank)
  bcast_S1x1x512x1024_S4x64x512x1024_0_1_2_3 : S1x1x512x1024.BroadcastsInDim S4x64x512x1024 (![0, 1, 2, 3] : Fin 4 → Fin S4x64x512x1024.rank)
  transposes_S4x64x512x1024_S4x512x64x1024_0_2_1_3 : S4x64x512x1024.Transposes [0, 2, 1, 3] S4x512x64x1024
  shapeCasts_S4x512x64x1024_S4x32768x1024 : S4x512x64x1024.ShapeCasts S4x32768x1024
  dot_S4x64x512x512_S1024x512_S4x64x512x1024_3_1_012_0_n_n_wf : DotDims.WF S4x64x512x512 S1024x512 S4x64x512x1024 [3] [1] [0, 1, 2] [0] [] []
  gather_S64x1024_S64x1_S64x1024_1_0_n_n_0_1_11024_wf : GatherDims.WF S64x1024 S64x1 S64x1024 [1] [0] [] [0] [] 1 ![1, 1024]
  gather_S512x1024_S512x1_S512x1024_1_0_n_n_0_1_11024_wf : GatherDims.WF S512x1024 S512x1 S512x1024 [1] [0] [] [0] [] 1 ![1, 1024]

variable [Facts₀]

def dot_S4x64x512x512_S1024x512_S4x64x512x1024_3_1_012_0_n_n : DotDims S4x64x512x512 S1024x512 S4x64x512x1024 where
  lhsContracting := [3]
  rhsContracting := [1]
  lhsNonContracting := [0, 1, 2]
  rhsNonContracting := [0]
  lhsBatch := []
  rhsBatch := []
  wf := dot_S4x64x512x512_S1024x512_S4x64x512x1024_3_1_012_0_n_n_wf
def gather_S64x1024_S64x1_S64x1024_1_0_n_n_0_1_11024 : GatherDims S64x1024 S64x1 S64x1024 where
  offsetDims := [1]
  collapsedSliceDims := [0]
  operandBatchingDims := []
  startIndicesBatchingDims := []
  startIndexMap := [0]
  indexVectorDim := 1
  sliceSizes := ![1, 1024]
  wf := gather_S64x1024_S64x1_S64x1024_1_0_n_n_0_1_11024_wf
def gather_S512x1024_S512x1_S512x1024_1_0_n_n_0_1_11024 : GatherDims S512x1024 S512x1 S512x1024 where
  offsetDims := [1]
  collapsedSliceDims := [0]
  operandBatchingDims := []
  startIndicesBatchingDims := []
  startIndexMap := [0]
  indexVectorDim := 1
  sliceSizes := ![1, 1024]
  wf := gather_S512x1024_S512x1_S512x1024_1_0_n_n_0_1_11024_wf

class Facts : Prop extends Facts₀ where

variable [Facts]
-- ==== Proof.KerPayload.lean ====
/-
  What one grid step of the tiled program computes, entry by entry, on the extended reals.

  A step holds a block xb[0, c, t, k] of the signal (64 channels × 64 time steps × 512 inputs), the whole transposed
  projection w[k, o] (512 × 1024), the step's 64 rows tt[t, o] of the time table (already holding bias + gain · time)
  and the whole channel table ct[c, o] (already holding gain · chan). It swaps the block's first two axes, so that rows
  run over (t, c) pairs in that order, flattens them to 4096 rows p = t · 64 + c, multiplies by w, unflattens, and adds
  tt along t and ct along c:

      value[t, c, o] = ( ∑ k, xb[0, c, t, k] · w[k, o]  +  tt[t, o] )  +  ct[c, o].

  Roundings to and from the 16-bit format are the identity on the extended reals; the product into a zero accumulator
  is the plain sum over the one contracted axis.
-/
import proofs.«137757_g64484638982276_cont_9to1_m_834_28_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.KerPayload

open Cert.KernelIdeal Cert.KernelIdeal.Gen Idealize.ShloMosaic Idealize.ShloMosaic.ValueIdx

/-- Row p of the flattened block is the pair (t, c) = (p / 64, p % 64). -/
def rowT (p : Fin 4096) : Fin 64 := ⟨p.val / 64, by omega⟩
def rowC (p : Fin 4096) : Fin 64 := ⟨p.val % 64, by omega⟩
/-- The row of the pair (t, c). -/
def pairRow (t c : Fin 64) : Fin 4096 := ⟨t.val * 64 + c.val, by omega⟩

theorem rowT_pairRow (t c : Fin 64) : rowT (pairRow t c) = t := Fin.ext (by show (t.val * 64 + c.val) / 64 = t.val; omega)
theorem rowC_pairRow (t c : Fin 64) : rowC (pairRow t c) = c := Fin.ext (by show (t.val * 64 + c.val) % 64 = c.val; omega)

/-- The left factor: the block with its unit axis dropped, its first two axes swapped and its rows flattened reads, at
    row p and input k, the block at channel p % 64, time step p / 64. -/
theorem lhs_apply (xb : FVec Ideal S1x64x64x512 .f32)
    (h1 : S1x64x64x512.ShapeCasts S64x64x512) (hb : FTy.bf16.bits < FTy.f32.bits)
    (h2 : S64x64x512.Transposes [1, 0, 2] S64x64x512) (h3 : S64x64x512.ShapeCasts S4096x512)
    (p : Fin 4096) (k : Fin 512) :
    shapeCast S4096x512 (transpose S64x64x512 [1, 0, 2] (truncf .bf16 (shapeCast S64x64x512 xb h1) hb) h2) h3 (ix2 p k)
      = xb (ix4 (0 : Fin 1) (rowC p) (rowT p) k) := by
  refine (shapeCast_apply _ h3 (ix2 p k) (ix3 (rowT p) (rowC p) k) ?_).trans ?_
  · rw [Shape.rowMajor_val_three, Shape.rowMajor_val_two]
    show (p.val / 64 * 64 + p.val % 64) * 512 + k.val = p.val * 512 + k.val
    omega
  refine (transpose_apply [1, 0, 2] _ h2 (ix3 (rowT p) (rowC p) k) (ix3 (rowC p) (rowT p) k) ?_).trans ?_
  · intro b
    match b with
    | ⟨0, _⟩ => rfl
    | ⟨1, _⟩ => rfl
    | ⟨2, _⟩ => rfl
  show shapeCast S64x64x512 xb h1 (ix3 (rowC p) (rowT p) k) = _
  refine shapeCast_apply _ h1 (ix3 (rowC p) (rowT p) k) (ix4 (0 : Fin 1) (rowC p) (rowT p) k) ?_
  rw [Shape.rowMajor_val_four, Shape.rowMajor_val_three]
  show ((0 * 64 + p.val % 64) * 64 + p.val / 64) * 512 + k.val = (p.val % 64 * 64 + p.val / 64) * 512 + k.val
  omega

/-! ### The product over the one contracted axis -/

/-- The coordinates of the two operand indices of the product: the left operand is read at (row, k), the right at
    (k, column). -/
theorem lhs_row (i : S4096x1024.Idx) (q : dot_S4096x512_S512x1024_S4096x1024_1_0_0_1_n_n.contr.Idx) :
    (dot_S4096x512_S512x1024_S4096x1024_1_0_0_1_n_n.lhsIdx i q 0).val = (i 0).val := by
  unfold DotDims.lhsIdx
  rw [dif_neg (show ¬(0 : Fin S4096x512.rank) ∈ dot_S4096x512_S512x1024_S4096x1024_1_0_0_1_n_n.lhsBatch by decide),
    dif_pos (show (0 : Fin S4096x512.rank) ∈ dot_S4096x512_S512x1024_S4096x1024_1_0_0_1_n_n.lhsNonContracting by decide)]
  rfl
theorem lhs_contr (i : S4096x1024.Idx) (q : dot_S4096x512_S512x1024_S4096x1024_1_0_0_1_n_n.contr.Idx) :
    (dot_S4096x512_S512x1024_S4096x1024_1_0_0_1_n_n.lhsIdx i q 1).val = (q ⟨0, by decide⟩).val :=
  dot_S4096x512_S512x1024_S4096x1024_1_0_0_1_n_n.lhsIdx_val_of_single rfl i q
theorem rhs_contr (i : S4096x1024.Idx) (q : dot_S4096x512_S512x1024_S4096x1024_1_0_0_1_n_n.contr.Idx) :
    (dot_S4096x512_S512x1024_S4096x1024_1_0_0_1_n_n.rhsIdx i q 0).val = (q ⟨0, by decide⟩).val :=
  dot_S4096x512_S512x1024_S4096x1024_1_0_0_1_n_n.rhsIdx_val_of_single rfl i q
theorem rhs_col (i : S4096x1024.Idx) (q : dot_S4096x512_S512x1024_S4096x1024_1_0_0_1_n_n.contr.Idx) :
    (dot_S4096x512_S512x1024_S4096x1024_1_0_0_1_n_n.rhsIdx i q 1).val = (i 1).val := by
  unfold DotDims.rhsIdx
  rw [dif_neg (show ¬(1 : Fin S512x1024.rank) ∈ dot_S4096x512_S512x1024_S4096x1024_1_0_0_1_n_n.rhsBatch by decide),
    dif_pos (show (1 : Fin S512x1024.rank) ∈ dot_S4096x512_S512x1024_S4096x1024_1_0_0_1_n_n.rhsNonContracting by decide)]
  rfl

/-- The product into a zero accumulator, at row p and column o, is the sum over the 512 inputs. -/
theorem prod_apply (l : FVec Ideal S4096x512 .bf16) (r : FVec Ideal S512x1024 .bf16) (p : Fin 4096) (o : Fin 1024) :
    matmul dot_S4096x512_S512x1024_S4096x1024_1_0_0_1_n_n none l r (constant S4096x1024 .f32 0x00000000#32) (ix2 p o)
      = ∑ k : Fin 512, l (ix2 p k) * r (ix2 k o) := by
  refine (Ideal.matmul_constant_zero_apply dot_S4096x512_S512x1024_S4096x1024_1_0_0_1_n_n none l r (ix2 p o)).trans ?_
  rw [← Equiv.sum_comp (contrEquiv1 dot_S4096x512_S512x1024_S4096x1024_1_0_0_1_n_n 512 rfl rfl).symm]
  refine Finset.sum_congr rfl fun k _ => ?_
  have hk := contrEquiv1_symm_val dot_S4096x512_S512x1024_S4096x1024_1_0_0_1_n_n 512 rfl rfl k
  have el : dot_S4096x512_S512x1024_S4096x1024_1_0_0_1_n_n.lhsIdx (ix2 p o)
      ((contrEquiv1 dot_S4096x512_S512x1024_S4096x1024_1_0_0_1_n_n 512 rfl rfl).symm k) = ix2 p k :=
    funext fun a => Fin.ext (by
      match a with
      | ⟨0, _⟩ => exact lhs_row _ _
      | ⟨1, _⟩ => exact (lhs_contr _ _).trans hk)
  have er : dot_S4096x512_S512x1024_S4096x1024_1_0_0_1_n_n.rhsIdx (ix2 p o)
      ((contrEquiv1 dot_S4096x512_S512x1024_S4096x1024_1_0_0_1_n_n 512 rfl rfl).symm k) = ix2 k o :=
    funext fun a => Fin.ext (by
      match a with
      | ⟨0, _⟩ => exact (rhs_contr _ _).trans hk
      | ⟨1, _⟩ => exact rhs_col _ _)
  rw [el, er]

/-! ### Unflattening, and the two tables spread along the other axis -/

/-- The 4096 × 1024 product seen as 64 × 64 × 1024: entry (t, c, o) is row t · 64 + c. -/
theorem unflatten_apply (v : FVec Ideal S4096x1024 .f32) (h : S4096x1024.ShapeCasts S64x64x1024) (t c : Fin 64) (o : Fin 1024) :
    shapeCast S64x64x1024 v h (ix3 t c o) = v (ix2 (pairRow t c) o) := by
  refine shapeCast_apply _ h (ix3 t c o) (ix2 (pairRow t c) o) ?_
  rw [Shape.rowMajor_val_three, Shape.rowMajor_val_two]
  show (t.val * 64 + c.val) * 1024 + o.val = (t.val * 64 + c.val) * 1024 + o.val
  rfl

/-- The time rows, kept as 64 × 1 × 1024 and spread along the channel axis: entry (t, c, o) is tt[t, o]. -/
theorem alongT_apply (tt : FVec Ideal S64x1024 .bf16) (hs : S64x1024.ShapeCasts S64x1024) (h4 : S64x1024.ShapeCasts S64x1x1024)
    (hb : FTy.bf16.bits < FTy.f32.bits) (h5 : S64x1x1024.Broadcasts S64x64x1024) (t c : Fin 64) (o : Fin 1024) :
    broadcastTo S64x64x1024 (extf .f32 (shapeCast S64x1x1024 (shapeCast S64x1024 tt hs) h4) hb) h5 (ix3 t c o) = tt (ix2 t o) := by
  refine (broadcastTo_apply _ h5 (ix3 t c o) (ix3 t (0 : Fin 1) o) ?_).trans ?_
  · intro a
    match a with
    | ⟨0, _⟩ => rfl
    | ⟨1, _⟩ => rfl
    | ⟨2, _⟩ => rfl
  show shapeCast S64x1x1024 (shapeCast S64x1024 tt hs) h4 (ix3 t (0 : Fin 1) o) = _
  rw [shapeCast_self]
  refine shapeCast_apply _ h4 (ix3 t (0 : Fin 1) o) (ix2 t o) ?_
  rw [Shape.rowMajor_val_three, Shape.rowMajor_val_two]
  show t.val * 1024 + o.val = (t.val * 1 + 0) * 1024 + o.val
  omega

/-- The channel table, kept as 1 × 64 × 1024 and spread along the time axis: entry (t, c, o) is ct[c, o]. -/
theorem alongC_apply (ct : FVec Ideal S64x1024 .bf16) (hs : S64x1024.ShapeCasts S64x1024) (h4 : S64x1024.ShapeCasts S1x64x1024)
    (hb : FTy.bf16.bits < FTy.f32.bits) (h5 : S1x64x1024.Broadcasts S64x64x1024) (t c : Fin 64) (o : Fin 1024) :
    broadcastTo S64x64x1024 (extf .f32 (shapeCast S1x64x1024 (shapeCast S64x1024 ct hs) h4) hb) h5 (ix3 t c o) = ct (ix2 c o) := by
  refine (broadcastTo_apply _ h5 (ix3 t c o) (ix3 (0 : Fin 1) c o) ?_).trans ?_
  · intro a
    match a with
    | ⟨0, _⟩ => rfl
    | ⟨1, _⟩ => rfl
    | ⟨2, _⟩ => rfl
  show shapeCast S1x64x1024 (shapeCast S64x1024 ct hs) h4 (ix3 (0 : Fin 1) c o) = _
  rw [shapeCast_self]
  refine shapeCast_apply _ h4 (ix3 (0 : Fin 1) c o) (ix2 c o) ?_
  rw [Shape.rowMajor_val_three, Shape.rowMajor_val_two]
  show c.val * 1024 + o.val = (0 * 64 + c.val) * 1024 + o.val
  omega

/-! ### The step's value -/

/-- THE STEP'S VALUE at (t, c, o): the contraction of the block's (c, t) row with column o of the projection, plus the
    time row's entry, plus the channel table's entry. -/
theorem pay_apply (xb : Vec Ideal S1x64x64x512 .f32) (w : Vec Ideal S512x1024 .bf16) (tt ct : Vec Ideal S64x1024 .bf16)
    (t c : Fin 64) (o : Fin 1024) :
    k0_pay1 xb w tt ct (ix3 t c o)
      = ((∑ k : Fin 512, xb (ix4 (0 : Fin 1) c t k) * w (ix2 k o)) + tt (ix2 t o)) + ct (ix2 c o) := by
  unfold k0_pay1
  refine (addf_apply _ _ _).trans (congrArg₂ (· + ·) ((addf_apply _ _ _).trans (congrArg₂ (· + ·) ?_ ?_)) ?_)
  · refine (unflatten_apply _ _ t c o).trans ((prod_apply _ _ (pairRow t c) o).trans ?_)
    refine Finset.sum_congr rfl fun k _ => ?_
    rw [lhs_apply, shapeCast_self, rowT_pairRow, rowC_pairRow]
  · exact alongT_apply tt _ _ _ _ t c o
  · exact alongC_apply ct _ _ _ _ t c o

end Cert.KernelIdeal.KerPayload

end
-- ==== Proof.KerBlocks.lean ====
/-
  From grid steps to the whole intermediate array of the tiled program.

  The tiled program runs 4 × 8 grid steps. Step (i, j) reads the block of the signal with batch i and time steps
  j · 64 … j · 64 + 63, the whole transposed projection, the whole channel table, and rows j · 64 … j · 64 + 63 of the time
  table, and writes block i · 8 + j (64 rows) of an array of 2048 × 64 × 1024. Row R = (i · 8 + j) · 64 + tl of that array is
  therefore batch R / 512 and time step R % 512, and the array is one function of the arrays the steps read:

      stage[R, c, o] = ( ∑ k, X[R / 512, c, R % 512, k] · Wt[k, o]  +  Tv[R % 512, o] )  +  Ct[c, o].

  Every row lies in exactly the block R / 64, so the 32 blocks written cover the array.
-/
import proofs.«137757_g64484638982276_cont_9to1_m_834_28_alg».proof.Proof.Gen.KernelIdeal.Frame
import proofs.«137757_g64484638982276_cont_9to1_m_834_28_alg».proof.Proof.KerPayload
import Idealize.ShloMosaic.Lib.Pipeline.Value

set_option maxRecDepth 16384

noncomputable section

namespace Cert.KernelIdeal.KerBlocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- Row R of the intermediate array is batch R / 512, time step R % 512. -/
def rowB (R : Fin 2048) : Fin 4 := ⟨R.val / 512, by omega⟩
def rowS (R : Fin 2048) : Fin 512 := ⟨R.val % 512, by omega⟩

/-- The intermediate array's entry (R, c, o) from the four arrays the steps read. -/
def stage (X : S4x64x512x512.Idx → EReal) (Wt : S512x1024.Idx → EReal) (Ct : S64x1024.Idx → EReal) (Tv : S512x1024.Idx → EReal)
    (R : Fin 2048) (c : Fin 64) (o : Fin 1024) : EReal :=
  ((∑ k : Fin 512, X (ix4 (rowB R) c (rowS R) k) * Wt (ix2 k o)) + Tv (ix2 (rowS R) o)) + Ct (ix2 c o)

/-- The whole intermediate array. -/
def stageArr (X : S4x64x512x512.Idx → EReal) (Wt : S512x1024.Idx → EReal) (Ct : S64x1024.Idx → EReal) (Tv : S512x1024.Idx → EReal) :
    S2048x64x1024.Idx → EReal :=
  fun i => stage X Wt Ct Tv (i 0) (i 1) (i 2)

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- Which blocks a step reads and writes, decided over the 32 steps: with q the number of the block written, the signal
    block is (batch q / 8, time block q % 8), the time-table block is q % 8, the projection and the channel table are
    read whole. -/
theorem block_numbers : ∀ t : Fin cfg0.N,
    win0_0.index t (0 : Fin 4) * 8 + win0_0.index t (2 : Fin 4) = win0_4.index t (0 : Fin 3)
    ∧ win0_0.index t (2 : Fin 4) < 8
    ∧ win0_0.index t (1 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = win0_0.index t (2 : Fin 4) ∧ win0_3.index t (1 : Fin 2) = 0
    ∧ win0_4.index t (1 : Fin 3) = 0 ∧ win0_4.index t (2 : Fin 3) = 0
    ∧ win0_4.index t (0 : Fin 3) < 32 :=
  (by decide +kernel : ∀ t : Fin grid0.N, _)

/-- Every one of the 32 blocks of the intermediate array is written by some step. -/
theorem block_onto : ∀ q : Fin 32, ∃ t : Fin cfg0.N, win0_4.index t = ![q.val, 0, 0] :=
  (by decide +kernel : ∀ q : Fin 32, ∃ t : Fin grid0.N, win0_4.index t = ![q.val, 0, 0])

/-- WHAT STEP t WRITES BACK is block t of the intermediate array. -/
theorem flushed_eq (c : Dev nD) (t : Fin cfg0.N) :
    (dats m 0 c).flushed 4 t
      = ((cfg0.win 4).blk t).view.read (Elt Ideal) (stageArr (V m c main_arg0) (V m c main_v1) (V m c main_v5) (V m c main_v12)) := by
  show (cfg0.win 4).cut (grid0.coords t) ((dats m 0 c).after 4 t) = _
  rw [after0_4]
  unfold out0_4
  rw [View.canon_unit_zero zeros3]
  simp only [View.ld_unit_zero (S := S1x64x64x512) zeros4, View.ld_unit_zero (S := S512x1024) zeros2,
    View.ld_unit_zero (S := S64x1024) zeros2]
  funext y
  obtain ⟨tl, cc, o, rfl⟩ : ∃ (tl cc : Fin 64) (o : Fin 1024), y = ix3 tl cc o := ⟨y 0, y 1, y 2, eq_ix3 y⟩
  show k0_pay1 (iblk m c 0 t) (iblk m c 1 t) (iblk m c 3 t) (iblk m c 2 t) (ix3 tl cc o)
    = stageArr (V m c main_arg0) (V m c main_v1) (V m c main_v5) (V m c main_v12) (((cfg0.win 4).blk t).view.emb (ix3 tl cc o))
  refine (KerPayload.pay_apply (iblk m c 0 t) (iblk m c 1 t) (iblk m c 3 t) (iblk m c 2 t) tl cc o).trans ?_
  obtain ⟨e0, e1, e2, e3, e4, e5, e6, e7, e8, e9, e10, e11, e12⟩ := block_numbers t
  have hR : win0_4.index t (0 : Fin 3) * 64 + tl.val < 2048 := by omega
  have he : ((cfg0.win 4).blk t).view.emb (ix3 tl cc o)
      = ix3 (⟨win0_4.index t (0 : Fin 3) * 64 + tl.val, hR⟩ : Fin 2048) cc o := by
    funext a; apply Fin.ext
    match a with
    | ⟨0, _⟩ => show win0_4.index t (0 : Fin 3) * 64 + 1 * tl.val = win0_4.index t (0 : Fin 3) * 64 + tl.val; omega
    | ⟨1, _⟩ => show win0_4.index t (1 : Fin 3) * 64 + 1 * cc.val = cc.val; omega
    | ⟨2, _⟩ => show win0_4.index t (2 : Fin 3) * 1024 + 1 * o.val = o.val; omega
  rw [he]
  show _ = stage (V m c main_arg0) (V m c main_v1) (V m c main_v5) (V m c main_v12)
    (⟨win0_4.index t (0 : Fin 3) * 64 + tl.val, hR⟩ : Fin 2048) cc o
  unfold stage
  have h0 : ∀ k : Fin 512, iblk m c 0 t (ix4 (0 : Fin 1) cc tl k)
      = V m c main_arg0 (ix4 (rowB ⟨win0_4.index t (0 : Fin 3) * 64 + tl.val, hR⟩) cc
          (rowS ⟨win0_4.index t (0 : Fin 3) * 64 + tl.val, hR⟩) k) := by
    intro k
    show V m c main_arg0 (((cfg0.win 0).blk t).view.emb (ix4 (0 : Fin 1) cc tl k)) = _
    refine congrArg (V m c main_arg0) (funext fun a => Fin.ext ?_)
    match a with
    | ⟨0, _⟩ => show win0_0.index t (0 : Fin 4) * 1 + 1 * 0 = (win0_4.index t (0 : Fin 3) * 64 + tl.val) / 512; omega
    | ⟨1, _⟩ => show win0_0.index t (1 : Fin 4) * 64 + 1 * cc.val = cc.val; omega
    | ⟨2, _⟩ => show win0_0.index t (2 : Fin 4) * 64 + 1 * tl.val = (win0_4.index t (0 : Fin 3) * 64 + tl.val) % 512; omega
    | ⟨3, _⟩ => show win0_0.index t (3 : Fin 4) * 512 + 1 * k.val = k.val; omega
  have h1 : ∀ k : Fin 512, iblk m c 1 t (ix2 k o) = V m c main_v1 (ix2 k o) := by
    intro k
    show V m c main_v1 (((cfg0.win 1).blk t).view.emb (ix2 k o)) = _
    refine congrArg (V m c main_v1) (funext fun a => Fin.ext ?_)
    match a with
    | ⟨0, _⟩ => show win0_1.index t (0 : Fin 2) * 512 + 1 * k.val = k.val; omega
    | ⟨1, _⟩ => show win0_1.index t (1 : Fin 2) * 1024 + 1 * o.val = o.val; omega
  have h3 : iblk m c 3 t (ix2 tl o)
      = V m c main_v12 (ix2 (rowS ⟨win0_4.index t (0 : Fin 3) * 64 + tl.val, hR⟩) o) := by
    show V m c main_v12 (((cfg0.win 3).blk t).view.emb (ix2 tl o)) = _
    refine congrArg (V m c main_v12) (funext fun a => Fin.ext ?_)
    match a with
    | ⟨0, _⟩ => show win0_3.index t (0 : Fin 2) * 64 + 1 * tl.val = (win0_4.index t (0 : Fin 3) * 64 + tl.val) % 512; omega
    | ⟨1, _⟩ => show win0_3.index t (1 : Fin 2) * 1024 + 1 * o.val = o.val; omega
  have h2 : iblk m c 2 t (ix2 cc o) = V m c main_v5 (ix2 cc o) := by
    show V m c main_v5 (((cfg0.win 2).blk t).view.emb (ix2 cc o)) = _
    refine congrArg (V m c main_v5) (funext fun a => Fin.ext ?_)
    match a with
    | ⟨0, _⟩ => show win0_2.index t (0 : Fin 2) * 64 + 1 * cc.val = cc.val; omega
    | ⟨1, _⟩ => show win0_2.index t (1 : Fin 2) * 1024 + 1 * o.val = o.val; omega
  refine congrArg₂ (· + ·) (congrArg₂ (· + ·) (Finset.sum_congr rfl fun k _ => ?_) h3) h2
  rw [h0 k, h1 k]

/-- An index of the intermediate array is in step t's block iff each coordinate is in the block's range on its axis. -/
theorem mem_blk (t : Fin cfg0.N) (i : S2048x64x1024.Idx) :
    i ∈ ((cfg0.win 4).blk t).view.set ↔ ∀ a : Fin 3, win0_4.index t a * S64x64x1024.size a ≤ (i a).val
      ∧ (i a).val < win0_4.index t a * S64x64x1024.size a + S64x64x1024.size a := by
  show i ∈ ((View.whole main_v13).slice (win0_4.rect t)).set ↔ _
  rw [View.set_slice_whole, Rect.mem_set_unit]
  exact Iff.rfl

/-- Every index is in the block of some step that writes back: the step whose block number is the row divided by 64. -/
theorem cover (i : S2048x64x1024.Idx) :
    ∃ t : Fin cfg0.N, (cfg0.win 4).flush t = true ∧ i ∈ ((cfg0.win 4).blk t).view.set := by
  have hi0 : (i 0).val < 2048 := (i 0).isLt
  have hi1 : (i 1).val < 64 := (i 1).isLt
  have hi2 : (i 2).val < 1024 := (i 2).isLt
  obtain ⟨t, ht⟩ := block_onto ⟨(i 0).val / 64, by omega⟩
  have q0 : win0_4.index t (0 : Fin 3) = (i 0).val / 64 := congrFun ht 0
  have q1 : win0_4.index t (1 : Fin 3) = 0 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 64 ≤ (i 0).val ∧ (i 0).val < win0_4.index t (0 : Fin 3) * 64 + 64; omega
  | ⟨1, _⟩ => show win0_4.index t (1 : Fin 3) * 64 ≤ (i 1).val ∧ (i 1).val < win0_4.index t (1 : Fin 3) * 64 + 64; omega
  | ⟨2, _⟩ => show win0_4.index t (2 : Fin 3) * 1024 ≤ (i 2).val ∧ (i 2).val < win0_4.index t (2 : Fin 3) * 1024 + 1024; omega

/-- THE INTERMEDIATE ARRAY after all steps is the stage function of the arrays the steps read. -/
theorem final (c : Dev nD) :
    (dats m 0 c).arrAt 4 cfg0.N = stageArr (V m c main_arg0) (V m c main_v1) (V m c main_v5) (V m c main_v12) :=
  (dats m 0 c).arrAt_eq_of_cover 4 _ (fun t _ => flushed_eq m c t) cover

end Cert.KernelIdeal.KerBlocks

end
-- ==== Proof.KerHost.lean ====
/-
  The three small arrays the tiled program prepares before its grid steps, entry by entry on the extended reals
  (roundings to the 16-bit format are the identity there):

    Wt[k, o] = W[o, k]                               the projection, transposed;
    Ct[c, o] = gc · chan[c, o]                       the channel table times its gain;
    Tv[t, o] = bias[o] + gt · time[t, o]             the time table times its gain, plus the bias.

  The signal itself is read as launched.
-/
import proofs.«137757_g64484638982276_cont_9to1_m_834_28_alg».proof.Proof.Gen.KernelIdeal.Frame
import Idealize.ShloMosaic.Lib.StableHlo.Run
import Idealize.ShloMosaic.PureOps.Ideal
import Idealize.ShloMosaic.Lib.Pipeline.Value
import Idealize.ShloMosaic.Lib.ValueIdx

set_option maxRecDepth 16384

noncomputable section

namespace Cert.KernelIdeal.KerHost

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The seven argument arrays as launched on core `c`, each typed as a function from its index set to the extended
    reals: the signal, the projection, the bias, the channel table, the time table, and the two gains. -/
abbrev argX (c : Dev nD) : S4x64x512x512.Idx → EReal := m ((c : Thread nD τ).loc main_arg0)
abbrev argW (c : Dev nD) : S1024x512.Idx → EReal := m ((c : Thread nD τ).loc main_arg1)
abbrev argBias (c : Dev nD) : S1024.Idx → EReal := m ((c : Thread nD τ).loc main_arg2)
abbrev argChan (c : Dev nD) : S64x1024.Idx → EReal := m ((c : Thread nD τ).loc main_arg3)
abbrev argTime (c : Dev nD) : S512x1024.Idx → EReal := m ((c : Thread nD τ).loc main_arg4)
abbrev argGc (c : Dev nD) : S1.Idx → EReal := m ((c : Thread nD τ).loc main_arg5)
abbrev argGt (c : Dev nD) : S1.Idx → EReal := m ((c : Thread nD τ).loc main_arg6)

/-- The transposed projection: Wt[k, o] = W[o, k]. -/
theorem wt_apply (c : Dev nD) (k : Fin 512) (o : Fin 1024) :
    V m c main_v1 (ix2 k o) = argW m c (ix2 o k) := by
  have e : (V m c main_v1 : S512x1024.Idx → EReal)
      = truncf (F := Ideal) .bf16 (transpose S512x1024 [1, 0] (argW m c) transposes_S1024x512_S512x1024_1_0)
          bitsLt_bf16_f32 := by
    show StableHlo.after hostOps0 (fun b => m (c, b)) (Proc.devRef .tc main_v1) = _
    after_results
  refine (congrFun e (ix2 k o)).trans ?_
  show transpose S512x1024 [1, 0] (argW m c) transposes_S1024x512_S512x1024_1_0 (ix2 k o) = _
  refine transpose_apply [1, 0] _ transposes_S1024x512_S512x1024_1_0 (ix2 k o) (ix2 o k) ?_
  intro b
  match b with
  | ⟨0, _⟩ => rfl
  | ⟨1, _⟩ => rfl

/-- The channel table times its gain: Ct[c, o] = gc · chan[c, o]. -/
theorem ct_apply (c : Dev nD) (cc : Fin 64) (o : Fin 1024) :
    V m c main_v5 (ix2 cc o)
      = argGc m c (ix1 (0 : Fin 1)) * argChan m c (ix2 cc o) := by
  have e : (V m c main_v5 : S64x1024.Idx → EReal)
      = truncf (F := Ideal) .bf16 (mulf (broadcastInDim S64x1024 ![0, 1] bcast_S1x1_S64x1024_0_1
            (broadcastInDim S1x1 ![1] bcast_S1_S1x1_1 (argGc m c)))
          (argChan m c)) bitsLt_bf16_f32 := by
    show StableHlo.after hostOps0 (fun b => m (c, b)) (Proc.devRef .tc main_v5) = _
    after_results
  refine (congrFun e (ix2 cc o)).trans ?_
  show broadcastInDim S64x1024 ![0, 1] bcast_S1x1_S64x1024_0_1
      (broadcastInDim S1x1 ![1] bcast_S1_S1x1_1 (argGc m c)) (ix2 cc o)
    * argChan m c (ix2 cc o) = _
  refine congrArg (· * argChan m c (ix2 cc o)) ?_
  refine (broadcastInDim_apply ![0, 1] bcast_S1x1_S64x1024_0_1 _ (ix2 cc o) (ix2 (0 : Fin 1) (0 : Fin 1)) ?_).trans ?_
  · intro a
    match a with
    | ⟨0, _⟩ => rfl
    | ⟨1, _⟩ => rfl
  refine broadcastInDim_apply ![1] bcast_S1_S1x1_1 _ (ix2 (0 : Fin 1) (0 : Fin 1)) (ix1 (0 : Fin 1)) ?_
  intro a
  match a with
  | ⟨0, _⟩ => rfl

/-- The time table times its gain, plus the bias: Tv[t, o] = bias[o] + gt · time[t, o]. -/
theorem tv_apply (c : Dev nD) (t : Fin 512) (o : Fin 1024) :
    V m c main_v12 (ix2 t o)
      = argBias m c (ix1 o)
        + argGt m c (ix1 (0 : Fin 1)) * argTime m c (ix2 t o) := by
  have e : (V m c main_v12 : S512x1024.Idx → EReal)
      = truncf (F := Ideal) .bf16 (addf
          (broadcastInDim S512x1024 ![0, 1] bcast_S1x1024_S512x1024_0_1
            (broadcastInDim S1x1024 ![1] bcast_S1024_S1x1024_1 (argBias m c)))
          (mulf (broadcastInDim S512x1024 ![0, 1] bcast_S1x1_S512x1024_0_1
              (broadcastInDim S1x1 ![1] bcast_S1_S1x1_1 (argGt m c)))
            (argTime m c))) bitsLt_bf16_f32 := by
    show StableHlo.after hostOps0 (fun b => m (c, b)) (Proc.devRef .tc main_v12) = _
    after_results
  refine (congrFun e (ix2 t o)).trans ?_
  show broadcastInDim S512x1024 ![0, 1] bcast_S1x1024_S512x1024_0_1
        (broadcastInDim S1x1024 ![1] bcast_S1024_S1x1024_1 (argBias m c)) (ix2 t o)
      + broadcastInDim S512x1024 ![0, 1] bcast_S1x1_S512x1024_0_1
          (broadcastInDim S1x1 ![1] bcast_S1_S1x1_1 (argGt m c)) (ix2 t o)
        * argTime m c (ix2 t o) = _
  refine congrArg₂ (· + ·) ?_ (congrArg (· * argTime m c (ix2 t o)) ?_)
  · refine (broadcastInDim_apply ![0, 1] bcast_S1x1024_S512x1024_0_1 _ (ix2 t o) (ix2 (0 : Fin 1) o) ?_).trans ?_
    · intro a
      match a with
      | ⟨0, _⟩ => rfl
      | ⟨1, _⟩ => rfl
    refine broadcastInDim_apply ![1] bcast_S1024_S1x1024_1 _ (ix2 (0 : Fin 1) o) (ix1 o) ?_
    intro a
    match a with
    | ⟨0, _⟩ => rfl
  · refine (broadcastInDim_apply ![0, 1] bcast_S1x1_S512x1024_0_1 _ (ix2 t o) (ix2 (0 : Fin 1) (0 : Fin 1)) ?_).trans ?_
    · intro a
      match a with
      | ⟨0, _⟩ => rfl
      | ⟨1, _⟩ => rfl
    refine broadcastInDim_apply ![1] bcast_S1_S1x1_1 _ (ix2 (0 : Fin 1) (0 : Fin 1)) (ix1 (0 : Fin 1)) ?_
    intro a
    match a with
    | ⟨0, _⟩ => rfl

end Cert.KernelIdeal.KerHost

end
-- ==== Proof.Spec.lean ====
/-
  The one function both programs compute, read index by index on the extended reals.

  Inputs: a signal x[b, c, t, k] (4 × 64 × 512 × 512), a projection W[o, k] (1024 × 512), a bias[o], a channel table
  chan[c, o], a time table time[t, o] and two scalar gains gc, gt (arrays of one entry). The result has one row per
  (t, c) pair, in that order: row r = t · 64 + c of batch b holds, in column o,

      ( ∑ k, x[b, c, t, k] · W[o, k]  +  ( bias[o] + gt · time[t, o] ) )  +  gc · chan[c, o].

  The grouping is the one in which the tiled program adds its three terms; the plain program adds the same three terms
  and the bias in another grouping and writes each gain on the right of its product, which on the extended reals is
  the same value because addition there is commutative and associative and multiplication commutative (no
  cancellation and no distribution is used, so infinite entries need no separate treatment).
-/
import Idealize.ShloMosaic.PureOps.Ideal
import Idealize.ShloMosaic.Lib.ValueIdx

noncomputable section

namespace Cert.Spec

open Idealize.ShloMosaic Idealize.ShloMosaic.ValueIdx

/-- The result entry of batch `b`, time step `t`, channel `c`, output column `o`. -/
def entry (x : FVec Ideal ⟨4, ![4, 64, 512, 512]⟩ .f32) (W : FVec Ideal ⟨2, ![1024, 512]⟩ .f32)
    (bias : FVec Ideal ⟨1, ![1024]⟩ .f32) (chan : FVec Ideal ⟨2, ![64, 1024]⟩ .f32)
    (time : FVec Ideal ⟨2, ![512, 1024]⟩ .f32) (gc gt : FVec Ideal ⟨1, ![1]⟩ .f32)
    (b : Fin 4) (t : Fin 512) (c : Fin 64) (o : Fin 1024) : EReal :=
  ((∑ k : Fin 512, x (ix4 b c t k) * W (ix2 o k)) + (bias (ix1 o) + gt (ix1 (0 : Fin 1)) * time (ix2 t o)))
    + gc (ix1 (0 : Fin 1)) * chan (ix2 c o)

/-- Row `r` of the result is the pair (time step `r / 64`, channel `r % 64`). -/
def rowTime (r : Fin 32768) : Fin 512 := ⟨r.val / 64, by omega⟩
def rowChan (r : Fin 32768) : Fin 64 := ⟨r.val % 64, by omega⟩

/-- The whole result array, 4 × 32768 × 1024. -/
def out (x : FVec Ideal ⟨4, ![4, 64, 512, 512]⟩ .f32) (W : FVec Ideal ⟨2, ![1024, 512]⟩ .f32)
    (bias : FVec Ideal ⟨1, ![1024]⟩ .f32) (chan : FVec Ideal ⟨2, ![64, 1024]⟩ .f32)
    (time : FVec Ideal ⟨2, ![512, 1024]⟩ .f32) (gc gt : FVec Ideal ⟨1, ![1]⟩ .f32) :
    FVec Ideal ⟨3, ![4, 32768, 1024]⟩ .f32 :=
  fun j => entry x W bias chan time gc gt (j 0) (rowTime (j 1)) (rowChan (j 1)) (j 2)

theorem out_apply (x : FVec Ideal ⟨4, ![4, 64, 512, 512]⟩ .f32) (W : FVec Ideal ⟨2, ![1024, 512]⟩ .f32)
    (bias : FVec Ideal ⟨1, ![1024]⟩ .f32) (chan : FVec Ideal ⟨2, ![64, 1024]⟩ .f32)
    (time : FVec Ideal ⟨2, ![512, 1024]⟩ .f32) (gc gt : FVec Ideal ⟨1, ![1]⟩ .f32)
    (b : Fin 4) (r : Fin 32768) (o : Fin 1024) :
    out x W bias chan time gc gt (ix3 b r o) = entry x W bias chan time gc gt b (rowTime r) (rowChan r) o := rfl

/-- The same entry with the four terms grouped and the gains placed as the plain program writes them. -/
theorem entry_eq_plain (x : FVec Ideal ⟨4, ![4, 64, 512, 512]⟩ .f32) (W : FVec Ideal ⟨2, ![1024, 512]⟩ .f32)
    (bias : FVec Ideal ⟨1, ![1024]⟩ .f32) (chan : FVec Ideal ⟨2, ![64, 1024]⟩ .f32)
    (time : FVec Ideal ⟨2, ![512, 1024]⟩ .f32) (gc gt : FVec Ideal ⟨1, ![1]⟩ .f32)
    (b : Fin 4) (t : Fin 512) (c : Fin 64) (o : Fin 1024) :
    (((∑ k : Fin 512, x (ix4 b c t k) * W (ix2 o k)) + bias (ix1 o)) + chan (ix2 c o) * gc (ix1 (0 : Fin 1)))
        + time (ix2 t o) * gt (ix1 (0 : Fin 1))
      = entry x W bias chan time gc gt b t c o := by
  unfold entry
  rw [mul_comm (chan (ix2 c o)), mul_comm (time (ix2 t o))]
  ac_rfl

end Cert.Spec

end
-- ==== Proof.KerValue.lean ====
/-
  The tiled program's result, as one function of its arguments.

  After the grid steps the program regroups the 2048 × 64 × 1024 intermediate array as 4 × 32768 × 1024 without moving
  any entry: entry (b, r, o) of the result is entry (b · 512 + r / 64, r % 64, o) of the intermediate array, that is batch b,
  time step r / 64, channel r % 64. Substituting the three prepared arrays (the transposed projection, the channel
  table times its gain, the time table times its gain plus the bias) gives exactly the specification's entry.
-/
import proofs.«137757_g64484638982276_cont_9to1_m_834_28_alg».proof.Proof.KerBlocks
import proofs.«137757_g64484638982276_cont_9to1_m_834_28_alg».proof.Proof.KerHost
import proofs.«137757_g64484638982276_cont_9to1_m_834_28_alg».proof.Proof.Spec
import Idealize.ShloMosaic.Lib.StableHlo.Run

set_option maxRecDepth 16384

noncomputable section

namespace Cert.KernelIdeal.KerValue

open Cert.KernelIdeal Cert.KernelIdeal.Gen Idealize.ShloMosaic Idealize.ShloMosaic.TcCoe Idealize.SL.Sem
open Idealize.ShloMosaic.ValueIdx Idealize.ShloMosaic.StableHlo
open Cert.KernelIdeal.KerHost Cert.KernelIdeal.KerBlocks

variable (m : (ℓ : Loc nD τ sig) → Buf (Elt Ideal) ℓ) (ρ : Dev nD → PrngReg)

/-- The result buffer after the regrouping is the intermediate array regrouped. -/
theorem tail_eq (c : Dev nD) :
    (Pipeline.afterTail₀ cfgs (dats m) 0 (V0 m) [hostOps1] c main_v14 : S4x32768x1024.Idx → EReal)
      = shapeCast S4x32768x1024 (stageArr (V m c main_arg0) (V m c main_v1) (V m c main_v5) (V m c main_v12))
          shapeCasts_S2048x64x1024_S4x32768x1024 := by
  unfold Pipeline.afterTail₀
  show StableHlo.after hostOps1 _ (Proc.devRef .tc main_v14) = _
  after_results
  have hw : (Pipeline.withArrays (cfgs 0).spec c (V0 m c) (fun w => (dats m 0 c).arrAt w (cfgs 0).N)
        (Proc.devRef .tc main_v13) : S2048x64x1024.Idx → EReal)
      = stageArr (V m c main_arg0) (V m c main_v1) (V m c main_v5) (V m c main_v12) :=
    (Pipeline.withArrays_arr spec0 launch0.win.arr_inj c _ _ 4).trans (final m c)
  funext i
  exact congrArg (fun v : S2048x64x1024.Idx → EReal =>
    shapeCast S4x32768x1024 v shapeCasts_S2048x64x1024_S4x32768x1024 i) hw

/-- The regrouped intermediate array at (b, r, o) is the specification's entry for batch b, time step r / 64,
    channel r % 64. -/
theorem value_apply (c : Dev nD) (b : Fin 4) (r : Fin 32768) (o : Fin 1024) :
    shapeCast S4x32768x1024 (stageArr (V m c main_arg0) (V m c main_v1) (V m c main_v5) (V m c main_v12))
        shapeCasts_S2048x64x1024_S4x32768x1024 (ix3 b r o)
      = Cert.Spec.entry (argX m c) (argW m c) (argBias m c) (argChan m c) (argTime m c) (argGc m c) (argGt m c)
          b (Cert.Spec.rowTime r) (Cert.Spec.rowChan r) o := by
  have hR : b.val * 512 + r.val / 64 < 2048 := by omega
  refine (shapeCast_apply _ shapeCasts_S2048x64x1024_S4x32768x1024 (ix3 b r o)
    (ix3 (⟨b.val * 512 + r.val / 64, hR⟩ : Fin 2048) (Cert.Spec.rowChan r) o) ?_).trans ?_
  · rw [Shape.rowMajor_val_three, Shape.rowMajor_val_three]
    show ((b.val * 512 + r.val / 64) * 64 + r.val % 64) * 1024 + o.val = (b.val * 32768 + r.val) * 1024 + o.val
    omega
  show stage (V m c main_arg0) (V m c main_v1) (V m c main_v5) (V m c main_v12)
    (⟨b.val * 512 + r.val / 64, hR⟩ : Fin 2048) (Cert.Spec.rowChan r) o = _
  have hb : rowB ⟨b.val * 512 + r.val / 64, hR⟩ = b :=
    Fin.ext (by show (b.val * 512 + r.val / 64) / 512 = b.val; omega)
  have hs : rowS ⟨b.val * 512 + r.val / 64, hR⟩ = Cert.Spec.rowTime r :=
    Fin.ext (by show (b.val * 512 + r.val / 64) % 512 = r.val / 64; omega)
  unfold stage Cert.Spec.entry
  rw [hb, hs]
  refine congrArg₂ (· + ·) (congrArg₂ (· + ·) (Finset.sum_congr rfl fun k _ => ?_)
    (tv_apply m c (Cert.Spec.rowTime r) o)) (ct_apply m c (Cert.Spec.rowChan r) o)
  rw [wt_apply m c k o, V_main_arg0 m c]

/-- THE RESULT: the specification's array of the argument arrays as launched. -/
theorem out_eq (c : Dev nD) :
    (Pipeline.afterTail₀ cfgs (dats m) 0 (V0 m) [hostOps1] c main_v14 : S4x32768x1024.Idx → EReal)
      = Cert.Spec.out (argX m c) (argW m c) (argBias m c) (argChan m c) (argTime m c) (argGc m c) (argGt m c) := by
  rw [tail_eq]
  funext j
  obtain ⟨b, r, o, rfl⟩ : ∃ (b : Fin 4) (r : Fin 32768) (o : Fin 1024), j = ix3 b r o := ⟨j 0, j 1, j 2, eq_ix3 j⟩
  exact value_apply m c b r o

/-- Every weakly fair execution of the tiled program terminates with the result buffer at the specification's array of
    the arguments, and the arguments unchanged. -/
theorem run : θ_run (defs (F := Ideal)) (onTc (τ := τ) (main (F := Ideal))) ⟨m, fun _ => 0, ρ⟩ fun r => ∀ c : Dev nD,
      r.2.mem ((c.tc : Thread nD τ).loc main_v14)
          = Cert.Spec.out (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v14 (Pipeline.mem_restRefs_of main_v14 (by decide) (by decide))).trans (out_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.KerValue

end
-- ==== Proof.RefRun.lean ====
/-
  The plain program's run. Its main function is a straight line of array operations: the two helper functions that
  read a table at an index array are substituted at their two call sites (each in turn substitutes the helper that
  chooses between two index arrays), which gives one list of 66 operations. Every fair execution ends with each
  array at the value obtained by folding that list over the initial contents.
-/
import proofs.«137757_g64484638982276_cont_9to1_m_834_28_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The main function's 66 operations in order, the helper functions' bodies written out at their call sites. -/
abbrev ops : List (HloOp τ sig (Elt F)) :=
  [ StableHlo.binary main_arg0 main_arg1 main_v0 ((fun l r => Host.dotGeneral dot_S4x64x512x512_S1024x512_S4x64x512x1024_3_1_012_0_n_n none l r) : (⟨S4x64x512x512, .f32⟩ : BufTy).Contents (Elt F) → (⟨S1024x512, .f32⟩ : BufTy).Contents (Elt F) → (⟨S4x64x512x1024, .f32⟩ : BufTy).Contents (Elt F)),
    StableHlo.unary main_arg2 main_v1 (broadcastInDim S1x1x1x1024 ![3] bcast_S1024_S1x1x1x1024_3 : (⟨S1024, .f32⟩ : BufTy).Contents (Elt F) → (⟨S1x1x1x1024, .f32⟩ : BufTy).Contents (Elt F)),
    StableHlo.unary main_v1 main_v2 (broadcastInDim S4x64x512x1024 ![0, 1, 2, 3] bcast_S1x1x1x1024_S4x64x512x1024_0_1_2_3 : (⟨S1x1x1x1024, .f32⟩ : BufTy).Contents (Elt F) → (⟨S4x64x512x1024, .f32⟩ : BufTy).Contents (Elt F)),
    StableHlo.binary main_v0 main_v2 main_v3 (addf : (⟨S4x64x512x1024, .f32⟩ : BufTy).Contents (Elt F) → (⟨S4x64x512x1024, .f32⟩ : BufTy).Contents (Elt F) → (⟨S4x64x512x1024, .f32⟩ : BufTy).Contents (Elt F)),
    StableHlo.nullary main_v4 (iotaInDim S512 32 0),
    StableHlo.nullary main_v5 (iotaInDim S64 32 0),
    StableHlo.TRef.nullary main_call0.c (constantI S_ 32 0#32),
    StableHlo.TRef.unary main_call0.c main_call0.v0 (broadcastInDim S64 ![] bcast_S_S64),
    StableHlo.TRef.binary (.of main_v5) main_call0.v0 main_call0.v1 (cmpi .slt),
    StableHlo.TRef.nullary main_call0.c_0 (constantI S_ 32 64#32),
    StableHlo.TRef.unary main_call0.c_0 main_call0.v2 (broadcastInDim S64 ![] bcast_S_S64),
    StableHlo.TRef.binary (.of main_v5) main_call0.v2 main_call0.v3 addi,
    StableHlo.TRef.ternary main_call0.v1 main_call0.v3 (.of main_v5) main_call0.call0.v0 select,
    StableHlo.TRef.unary main_call0.call0.v0 main_call0.v5 (broadcastInDim S64x1 ![0] bcast_S64_S64x1_0),
    StableHlo.TRef.nullary main_call0.c_1 (constantI S1 32 63#32),
    StableHlo.TRef.nullary main_call0.c_2 (constantI S_ 32 0#32),
    StableHlo.TRef.unary main_call0.c_2 main_call0.v6 (broadcastInDim S64x1 ![] bcast_S_S64x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S64x1 ![0, 1] bcast_S1x1_S64x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S64x1_S64_d1 h_S_),
    StableHlo.TRef.binary (.of main_arg3) main_call0.v5 main_call0.v13 (fun x i => Host.gather gather_S64x1024_S64x1_S64x1024_1_0_n_n_0_1_11024 x i),
    StableHlo.TRef.unary main_call0.v12 main_call0.v14 (broadcastInDim S64x1024 ![0] bcast_S64_S64x1024_0),
    StableHlo.TRef.nullary main_call0.cst (constant S_ .f32 0x7FC00000#32),
    StableHlo.TRef.unary main_call0.cst main_call0.v15 (broadcastInDim S64x1024 ![] bcast_S_S64x1024),
    StableHlo.TRef.ternary main_call0.v14 main_call0.v13 main_call0.v15 main_call0.v16 select,
    StableHlo.unary main_v6 main_v7 (broadcastInDim S1x64x1x1024 ![1, 3] bcast_S64x1024_S1x64x1x1024_1_3 : (⟨S64x1024, .f32⟩ : BufTy).Contents (Elt F) → (⟨S1x64x1x1024, .f32⟩ : BufTy).Contents (Elt F)),
    StableHlo.unary main_arg5 main_v8 (broadcastInDim S1x1x1x1 ![3] bcast_S1_S1x1x1x1_3 : (⟨S1, .f32⟩ : BufTy).Contents (Elt F) → (⟨S1x1x1x1, .f32⟩ : BufTy).Contents (Elt F)),
    StableHlo.unary main_v8 main_v9 (broadcastInDim S1x64x1x1024 ![0, 1, 2, 3] bcast_S1x1x1x1_S1x64x1x1024_0_1_2_3 : (⟨S1x1x1x1, .f32⟩ : BufTy).Contents (Elt F) → (⟨S1x64x1x1024, .f32⟩ : BufTy).Contents (Elt F)),
    StableHlo.binary main_v7 main_v9 main_v10 (mulf : (⟨S1x64x1x1024, .f32⟩ : BufTy).Contents (Elt F) → (⟨S1x64x1x1024, .f32⟩ : BufTy).Contents (Elt F) → (⟨S1x64x1x1024, .f32⟩ : BufTy).Contents (Elt F)),
    StableHlo.TRef.nullary main_call1.c (constantI S_ 32 0#32),
    StableHlo.TRef.unary main_call1.c main_call1.v0 (broadcastInDim S512 ![] bcast_S_S512),
    StableHlo.TRef.binary (.of main_v4) main_call1.v0 main_call1.v1 (cmpi .slt),
    StableHlo.TRef.nullary main_call1.c_0 (constantI S_ 32 512#32),
    StableHlo.TRef.unary main_call1.c_0 main_call1.v2 (broadcastInDim S512 ![] bcast_S_S512),
    StableHlo.TRef.binary (.of main_v4) main_call1.v2 main_call1.v3 addi,
    StableHlo.TRef.ternary main_call1.v1 main_call1.v3 (.of main_v4) main_call1.call0.v0 select,
    StableHlo.TRef.unary main_call1.call0.v0 main_call1.v5 (broadcastInDim S512x1 ![0] bcast_S512_S512x1_0),
    StableHlo.TRef.nullary main_call1.c_1 (constantI S1 32 511#32),
    StableHlo.TRef.nullary main_call1.c_2 (constantI S_ 32 0#32),
    StableHlo.TRef.unary main_call1.c_2 main_call1.v6 (broadcastInDim S512x1 ![] bcast_S_S512x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S512x1 ![0, 1] bcast_S1x1_S512x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S512x1_S512_d1 h_S_),
    StableHlo.TRef.binary (.of main_arg4) main_call1.v5 main_call1.v13 (fun x i => Host.gather gather_S512x1024_S512x1_S512x1024_1_0_n_n_0_1_11024 x i),
    StableHlo.TRef.unary main_call1.v12 main_call1.v14 (broadcastInDim S512x1024 ![0] bcast_S512_S512x1024_0),
    StableHlo.TRef.nullary main_call1.cst (constant S_ .f32 0x7FC00000#32),
    StableHlo.TRef.unary main_call1.cst main_call1.v15 (broadcastInDim S512x1024 ![] bcast_S_S512x1024),
    StableHlo.TRef.ternary main_call1.v14 main_call1.v13 main_call1.v15 main_call1.v16 select,
    StableHlo.unary main_v11 main_v12 (broadcastInDim S1x1x512x1024 ![2, 3] bcast_S512x1024_S1x1x512x1024_2_3 : (⟨S512x1024, .f32⟩ : BufTy).Contents (Elt F) → (⟨S1x1x512x1024, .f32⟩ : BufTy).Contents (Elt F)),
    StableHlo.unary main_arg6 main_v13 (broadcastInDim S1x1x1x1 ![3] bcast_S1_S1x1x1x1_3 : (⟨S1, .f32⟩ : BufTy).Contents (Elt F) → (⟨S1x1x1x1, .f32⟩ : BufTy).Contents (Elt F)),
    StableHlo.unary main_v13 main_v14 (broadcastInDim S1x1x512x1024 ![0, 1, 2, 3] bcast_S1x1x1x1_S1x1x512x1024_0_1_2_3 : (⟨S1x1x1x1, .f32⟩ : BufTy).Contents (Elt F) → (⟨S1x1x512x1024, .f32⟩ : BufTy).Contents (Elt F)),
    StableHlo.binary main_v12 main_v14 main_v15 (mulf : (⟨S1x1x512x1024, .f32⟩ : BufTy).Contents (Elt F) → (⟨S1x1x512x1024, .f32⟩ : BufTy).Contents (Elt F) → (⟨S1x1x512x1024, .f32⟩ : BufTy).Contents (Elt F)),
    StableHlo.unary main_v10 main_v16 (broadcastInDim S4x64x512x1024 ![0, 1, 2, 3] bcast_S1x64x1x1024_S4x64x512x1024_0_1_2_3 : (⟨S1x64x1x1024, .f32⟩ : BufTy).Contents (Elt F) → (⟨S4x64x512x1024, .f32⟩ : BufTy).Contents (Elt F)),
    StableHlo.binary main_v3 main_v16 main_v17 (addf : (⟨S4x64x512x1024, .f32⟩ : BufTy).Contents (Elt F) → (⟨S4x64x512x1024, .f32⟩ : BufTy).Contents (Elt F) → (⟨S4x64x512x1024, .f32⟩ : BufTy).Contents (Elt F)),
    StableHlo.unary main_v15 main_v18 (broadcastInDim S4x64x512x1024 ![0, 1, 2, 3] bcast_S1x1x512x1024_S4x64x512x1024_0_1_2_3 : (⟨S1x1x512x1024, .f32⟩ : BufTy).Contents (Elt F) → (⟨S4x64x512x1024, .f32⟩ : BufTy).Contents (Elt F)),
    StableHlo.binary main_v17 main_v18 main_v19 (addf : (⟨S4x64x512x1024, .f32⟩ : BufTy).Contents (Elt F) → (⟨S4x64x512x1024, .f32⟩ : BufTy).Contents (Elt F) → (⟨S4x64x512x1024, .f32⟩ : BufTy).Contents (Elt F)),
    StableHlo.unary main_v19 main_v20 ((transpose S4x512x64x1024 [0, 2, 1, 3] · transposes_S4x64x512x1024_S4x512x64x1024_0_2_1_3) : (⟨S4x64x512x1024, .f32⟩ : BufTy).Contents (Elt F) → (⟨S4x512x64x1024, .f32⟩ : BufTy).Contents (Elt F)),
    StableHlo.reshape main_v20 main_v21 rfl shapeCasts_S4x512x64x1024_S4x32768x1024 ]

/-- The main function is that straight line: the helpers' definitions unfold at their call sites and sequencing
    reassociates, all by computation. -/
theorem main_eq (c : Dev nD) : main (F := F) c = seq ops := by
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    binary_bufs_sub .., unary_bufs_sub .., unary_bufs_sub .., binary_bufs_sub .., nullary_bufs_sub .., nullary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., unary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., unary_bufs_sub .., unary_bufs_sub .., unary_bufs_sub .., binary_bufs_sub ..,
    unary_bufs_sub .., binary_bufs_sub .., unary_bufs_sub .., binary_bufs_sub .., unary_bufs_sub .., reshape_bufs_sub ..
  ⟩

/-- From any memory with zero counters every fair execution of the main function terminates, and every array ends at
    the fold of the operation list over the initial contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefDefs.lean ====
/-
  The plain program's result as one composed term of its seven argument arrays.

  Reading a table at an index array is written once per table size: negative indices are moved up by the table's
  length, a row whose index is out of range is filled with a fixed value, the others are gathered row by row. The
  program then adds, to the contraction of the signal with the projection, the bias, the channel rows scaled by their
  gain and the time rows scaled by theirs, swaps the channel and time axes and merges them into one row axis.
-/
import proofs.«137757_g64484638982276_cont_9to1_m_834_28_alg».proof.Proof.Gen.ReferenceIdeal

noncomputable section

namespace Cert.ReferenceIdeal.RefDefs

open Cert.ReferenceIdeal Cert.ReferenceIdeal.Gen Idealize.ShloMosaic

variable {F : FTy → Type} [FloatOps F]

/-- An index array with each negative entry moved up by the table's length, 64. -/
def wrap64 (idx : IVec S64 32) : IVec S64 32 :=
  select (cmpi .slt idx (broadcastInDim S64 ![] bcast_S_S64 (constantI S_ 32 0#32)))
    (addi idx (broadcastInDim S64 ![] bcast_S_S64 (constantI S_ 32 64#32))) idx

/-- The same indices as a column, one start index per row. -/
def col64 (idx : IVec S64 32) : IVec S64x1 32 :=
  broadcastInDim S64x1 ![0] bcast_S64_S64x1_0 (wrap64 idx)

/-- Per row: is the (moved) index inside `0 … 63`? The conjunction over the column's single entry. -/
def inRange64 (idx : IVec S64 32) : IVec S64 1 :=
  Host.reduce IntOp.andi
    (andi (cmpi .sge (col64 idx) (broadcastInDim S64x1 ![] bcast_S_S64x1 (constantI S_ 32 0#32)))
      (cmpi .sle (col64 idx)
        (broadcastInDim S64x1 ![0, 1] bcast_S1x1_S64x1_0_1 (broadcastInDim S1x1 ![1] bcast_S1_S1x1_1 (constantI S1 32 63#32)))))
    (constantI S_ 1 1#1) reducesTo_S64x1_S64_d1 h_S_

/-- Rows of a 64-row table read at an index array: row `idx[r]` where that index is in range, the fill value elsewhere. -/
def take64 (table : FVec F S64x1024 .f32) (idx : IVec S64 32) : FVec F S64x1024 .f32 :=
  select (broadcastInDim S64x1024 ![0] bcast_S64_S64x1024_0 (inRange64 idx))
    (Host.gather gather_S64x1024_S64x1_S64x1024_1_0_n_n_0_1_11024 table (col64 idx))
    (broadcastInDim S64x1024 ![] bcast_S_S64x1024 (constant S_ .f32 0x7FC00000#32))

/-- An index array with each negative entry moved up by the table's length, 512. -/
def wrap512 (idx : IVec S512 32) : IVec S512 32 :=
  select (cmpi .slt idx (broadcastInDim S512 ![] bcast_S_S512 (constantI S_ 32 0#32)))
    (addi idx (broadcastInDim S512 ![] bcast_S_S512 (constantI S_ 32 512#32))) idx

/-- The same indices as a column, one start index per row. -/
def col512 (idx : IVec S512 32) : IVec S512x1 32 :=
  broadcastInDim S512x1 ![0] bcast_S512_S512x1_0 (wrap512 idx)

/-- Per row: is the (moved) index inside `0 … 511`? The conjunction over the column's single entry. -/
def inRange512 (idx : IVec S512 32) : IVec S512 1 :=
  Host.reduce IntOp.andi
    (andi (cmpi .sge (col512 idx) (broadcastInDim S512x1 ![] bcast_S_S512x1 (constantI S_ 32 0#32)))
      (cmpi .sle (col512 idx)
        (broadcastInDim S512x1 ![0, 1] bcast_S1x1_S512x1_0_1 (broadcastInDim S1x1 ![1] bcast_S1_S1x1_1 (constantI S1 32 511#32)))))
    (constantI S_ 1 1#1) reducesTo_S512x1_S512_d1 h_S_

/-- Rows of a 512-row table read at an index array: row `idx[r]` where that index is in range, the fill value elsewhere. -/
def take512 (table : FVec F S512x1024 .f32) (idx : IVec S512 32) : FVec F S512x1024 .f32 :=
  select (broadcastInDim S512x1024 ![0] bcast_S512_S512x1024_0 (inRange512 idx))
    (Host.gather gather_S512x1024_S512x1_S512x1024_1_0_n_n_0_1_11024 table (col512 idx))
    (broadcastInDim S512x1024 ![] bcast_S_S512x1024 (constant S_ .f32 0x7FC00000#32))

/-- The contraction over the last axis of the signal with the projection's rows. -/
def proj (x : FVec F S4x64x512x512 .f32) (W : FVec F S1024x512 .f32) : FVec F S4x64x512x1024 .f32 :=
  Host.dotGeneral dot_S4x64x512x512_S1024x512_S4x64x512x1024_3_1_012_0_n_n none x W

/-- The bias along the last axis, repeated over the other three. -/
def biasTerm (bias : FVec F S1024 .f32) : FVec F S4x64x512x1024 .f32 :=
  broadcastInDim S4x64x512x1024 ![0, 1, 2, 3] bcast_S1x1x1x1024_S4x64x512x1024_0_1_2_3
    (broadcastInDim S1x1x1x1024 ![3] bcast_S1024_S1x1x1x1024_3 bias)

/-- The channel table's rows (read at `0, 1, …, 63`) times the channel gain, repeated over batch and time. -/
def chanTerm (chan : FVec F S64x1024 .f32) (gc : FVec F S1 .f32) : FVec F S4x64x512x1024 .f32 :=
  broadcastInDim S4x64x512x1024 ![0, 1, 2, 3] bcast_S1x64x1x1024_S4x64x512x1024_0_1_2_3
    (mulf (broadcastInDim S1x64x1x1024 ![1, 3] bcast_S64x1024_S1x64x1x1024_1_3 (take64 chan (iotaInDim S64 32 0)))
      (broadcastInDim S1x64x1x1024 ![0, 1, 2, 3] bcast_S1x1x1x1_S1x64x1x1024_0_1_2_3
        (broadcastInDim S1x1x1x1 ![3] bcast_S1_S1x1x1x1_3 gc)))

/-- The time table's rows (read at `0, 1, …, 511`) times the time gain, repeated over batch and channel. -/
def timeTerm (time : FVec F S512x1024 .f32) (gt : FVec F S1 .f32) : FVec F S4x64x512x1024 .f32 :=
  broadcastInDim S4x64x512x1024 ![0, 1, 2, 3] bcast_S1x1x512x1024_S4x64x512x1024_0_1_2_3
    (mulf (broadcastInDim S1x1x512x1024 ![2, 3] bcast_S512x1024_S1x1x512x1024_2_3 (take512 time (iotaInDim S512 32 0)))
      (broadcastInDim S1x1x512x1024 ![0, 1, 2, 3] bcast_S1x1x1x1_S1x1x512x1024_0_1_2_3
        (broadcastInDim S1x1x1x1 ![3] bcast_S1_S1x1x1x1_3 gt)))

/-- The sum of the four terms, indexed (batch, channel, time, column). -/
def core (x : FVec F S4x64x512x512 .f32) (W : FVec F S1024x512 .f32) (bias : FVec F S1024 .f32)
    (chan : FVec F S64x1024 .f32) (time : FVec F S512x1024 .f32) (gc gt : FVec F S1 .f32) : FVec F S4x64x512x1024 .f32 :=
  addf (addf (addf (proj x W) (biasTerm bias)) (chanTerm chan gc)) (timeTerm time gt)

/-- The result: channel and time axes swapped, then merged into one axis of 512 · 64 rows. -/
def refOut (x : FVec F S4x64x512x512 .f32) (W : FVec F S1024x512 .f32) (bias : FVec F S1024 .f32)
    (chan : FVec F S64x1024 .f32) (time : FVec F S512x1024 .f32) (gc gt : FVec F S1 .f32) : FVec F S4x32768x1024 .f32 :=
  shapeCast S4x32768x1024
    (transpose S4x512x64x1024 [0, 2, 1, 3] (core x W bias chan time gc gt) transposes_S4x64x512x1024_S4x512x64x1024_0_2_1_3)
    shapeCasts_S4x512x64x1024_S4x32768x1024

end Cert.ReferenceIdeal.RefDefs

end
-- ==== Proof.RefTerm.lean ====
/-
  The fold of the plain program's operation list, read at the result array and at the seven argument arrays: the
  result is the composed term `refOut` of the arguments' initial contents, and no operation writes an argument.
-/
import proofs.«137757_g64484638982276_cont_9to1_m_834_28_alg».proof.Proof.RefRun
import proofs.«137757_g64484638982276_cont_9to1_m_834_28_alg».proof.Proof.RefDefs

noncomputable section

namespace Cert.ReferenceIdeal.RefTerm

open Cert.ReferenceIdeal Cert.ReferenceIdeal.Gen Idealize.ShloMosaic Idealize.ShloMosaic.TcCoe Idealize.SL.Sem Idealize.ShloMosaic.StableHlo
open Cert.ReferenceIdeal.RefRun Cert.ReferenceIdeal.RefDefs

variable {F : FTy → Type} [FloatOps F]

attribute [local irreducible] Host.reduce Host.gather in
set_option maxRecDepth 8192 in
set_option maxHeartbeats 1000000 in
/-- The fold at the result array is the composed term: each operation either writes the array being read, and then
    contributes its function of the arrays it reads, or leaves it alone; what remains is the composed term written
    out, equal to `refOut` by unfolding its definitions. The gathers and the conjunctions stay folded. -/
theorem out_eq (V : Valuation τ sig (Elt F)) :
    after ops V (main_v21 : DevRef τ sig) = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  after_results_simp
  rfl

set_option maxRecDepth 8192 in
theorem arg0_eq (V : Valuation τ sig (Elt F)) :
    after ops V (main_arg0 : DevRef τ sig) = V (main_arg0 : DevRef τ sig) := by
  after_results_simp <;> rfl

set_option maxRecDepth 8192 in
theorem arg1_eq (V : Valuation τ sig (Elt F)) :
    after ops V (main_arg1 : DevRef τ sig) = V (main_arg1 : DevRef τ sig) := by
  after_results_simp <;> rfl

set_option maxRecDepth 8192 in
theorem arg2_eq (V : Valuation τ sig (Elt F)) :
    after ops V (main_arg2 : DevRef τ sig) = V (main_arg2 : DevRef τ sig) := by
  after_results_simp <;> rfl

set_option maxRecDepth 8192 in
theorem arg3_eq (V : Valuation τ sig (Elt F)) :
    after ops V (main_arg3 : DevRef τ sig) = V (main_arg3 : DevRef τ sig) := by
  after_results_simp <;> rfl

set_option maxRecDepth 8192 in
theorem arg4_eq (V : Valuation τ sig (Elt F)) :
    after ops V (main_arg4 : DevRef τ sig) = V (main_arg4 : DevRef τ sig) := by
  after_results_simp <;> rfl

set_option maxRecDepth 8192 in
theorem arg5_eq (V : Valuation τ sig (Elt F)) :
    after ops V (main_arg5 : DevRef τ sig) = V (main_arg5 : DevRef τ sig) := by
  after_results_simp <;> rfl

set_option maxRecDepth 8192 in
theorem arg6_eq (V : Valuation τ sig (Elt F)) :
    after ops V (main_arg6 : DevRef τ sig) = V (main_arg6 : DevRef τ sig) := by
  after_results_simp <;> rfl

end Cert.ReferenceIdeal.RefTerm

end
-- ==== Proof.LibRowGather.lean ====
/-
  A general fact about gathering whole rows of a matrix.

  Take a table with N rows and C columns and a column of R start indices (an R × 1 integer array). Gathering with one
  collapsed axis (the rows), one offset axis (the columns), the start index naming the row axis and slices of one
  whole row produces an R × C array whose entry (r, o) is the table's entry (k, o), where k is the r-th start index
  read as a signed integer and clamped into 0 … N − 1. Nothing here depends on a particular program.
-/
import Idealize.ShloMosaic.PureOps.Ideal
import Idealize.ShloMosaic.Lib.ValueIdx

noncomputable section

namespace Idealize.ShloMosaic.RowGather

open Idealize.ShloMosaic Idealize.ShloMosaic.ValueIdx

variable {α : Type}

/-- The dimension numbers of a whole-row gather from an `N × C` table at an `R × 1` column of start indices. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entry `(r, o)` of a whole-row gather is the table's entry `(k, o)`, `k` the `r`-th start index read signed and
    clamped into `0 … N − 1`. -/
theorem gather_row_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (o : Fin C) :
    Host.gather (rowDims N R C wf) x idx (ix2 r o)
      = x (ix2 (⟨min (idx (ix2 r (0 : Fin 1))).toInt.toNat (N - 1), by omega⟩ : Fin N) o) := by
  unfold Host.gather
  congr 1
  funext a
  refine Fin.ext ?_
  match a with
  | ⟨0, _⟩ =>
    show (rowDims N R C wf).start (ix2 r o) idx 0 + (rowDims N R C wf).batchCoord (ix2 r o) 0
        + (rowDims N R C wf).offCoord (ix2 r o) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r o) ⟨List.idxOf (0 : Fin 2) (rowDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N R C wf).start (ix2 r o) idx 1 + (rowDims N R C wf).batchCoord (ix2 r o) 1
        + (rowDims N R C wf).offCoord (ix2 r o) 1 = o.val
    rw [GatherDims.batchCoord_eq_zero _ _ _ List.not_mem_nil]
    unfold GatherDims.start
    rw [dif_neg (show ¬ (1 : Fin 2) ∈ (rowDims N R C wf).startIndexMap from
      fun h => absurd (List.mem_singleton.mp h) (show ¬ (1 : Fin 2) = 0 by decide))]
    simp only [Nat.add_zero, Nat.zero_add]
    rfl

end Idealize.ShloMosaic.RowGather

end
-- ==== Proof.LibAndReduce.lean ====
/-
  A general fact about reducing an array of one-bit words by conjunction: if the starting value is 1 and every entry
  that reduces into a given result position is 1, the result there is 1. (The library proves the converse.)
-/
import Idealize.ShloMosaic.Lib.ReduceAll

namespace Idealize.ShloMosaic.AndReduce

open Idealize.ShloMosaic

/-- A left fold by conjunction from 1 over entries that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons.2 (Or.inl rfl)), show IntOp.andi 1#1 1#1 = 1#1 by decide]
    exact foldl_andi_one f l fun n hn => h n (List.mem_cons.2 (Or.inr hn))

variable {s t u : Shape} {axes : List (Fin s.rank)}

/-- A reduction by conjunction from 1 is 1 at `j` when every entry reducing into `j` is 1. -/
theorem reduce_andi_of_all (x : s.Idx → BitVec 1) (init : u.Idx → BitVec 1) (h : s.ReducesTo axes t) (hu : 0 < u.numel)
    (j : t.Idx) (hinit : init (Shape.Idx.first hu) = 1#1) (hx : ∀ i, h.drop i = j → x i = 1#1) :
    Host.reduce IntOp.andi x init h hu j = 1#1 := by
  rw [Host.reduce_eq_foldl, hinit]
  refine foldl_andi_one x _ fun i hi => hx i ?_
  simpa using (List.mem_filter.1 hi).2

end Idealize.ShloMosaic.AndReduce
-- ==== Proof.RefTake.lean ====
/-
  Reading a table at the counting indices 0, 1, …, N − 1 returns the table, entry by entry.

  The plain program reads its channel table (64 rows) and its time table (512 rows) through a general "take": negative
  indices are moved up by N, a row whose index falls outside 0 … N − 1 is replaced by a fill value, and the others are
  gathered with the index clamped into range. At the counting indices none of this does anything: index i, as a signed
  32-bit word, is non-negative and at most N − 1, so it is not moved, its row is kept, and the clamped signed reading
  of the word is i again. These are finitely many facts about 32-bit words, checked for each i below N.
-/
import proofs.«137757_g64484638982276_cont_9to1_m_834_28_alg».proof.Proof.RefDefs
import proofs.«137757_g64484638982276_cont_9to1_m_834_28_alg».proof.Proof.LibRowGather
import proofs.«137757_g64484638982276_cont_9to1_m_834_28_alg».proof.Proof.LibAndReduce
import Idealize.ShloMosaic.Lib.Pipeline.Value

noncomputable section

namespace Cert.ReferenceIdeal.RefTake

open Cert.ReferenceIdeal Cert.ReferenceIdeal.Gen Idealize.ShloMosaic Idealize.ShloMosaic.ValueIdx
open Idealize.ShloMosaic.RowGather Idealize.ShloMosaic.AndReduce Cert.ReferenceIdeal.RefDefs

variable {F : FTy → Type} [FloatOps F]

/-! ## The table of 64 rows -/

/-- The word facts for every index below 64: as a signed 32-bit word it is not negative (so it is not moved), it lies
    between 0 and 63, and read back as a signed integer and clamped at 63 it is the index itself. -/
theorem word64 : ∀ i : Fin 64,
    Scalar.select (IntOp.cmpi .slt (BitVec.ofNat 32 i.val) 0#32) (IntOp.addi (BitVec.ofNat 32 i.val) 64#32) (BitVec.ofNat 32 i.val)
        = BitVec.ofNat 32 i.val
      ∧ IntOp.andi (IntOp.cmpi .sge (BitVec.ofNat 32 i.val) 0#32) (IntOp.cmpi .sle (BitVec.ofNat 32 i.val) 63#32) = 1#1
      ∧ min (BitVec.ofNat 32 i.val).toInt.toNat (64 - 1) = i.val := by
  decide +kernel

/-- The counting indices are not moved. -/
theorem wrap64_iota (r : Fin 64) : wrap64 (iotaInDim S64 32 0) (ix1 r) = BitVec.ofNat 32 r.val :=
  (word64 r).1

/-- As a column: row `r` holds the word of `r`. -/
theorem col64_iota (r : Fin 64) (z : Fin 1) : col64 (iotaInDim S64 32 0) (ix2 r z) = BitVec.ofNat 32 r.val := by
  unfold col64
  refine (broadcastInDim_apply _ _ _ (ix2 r z) (ix1 r) fun a => ?_).trans (wrap64_iota r)
  match a with
  | ⟨0, _⟩ => rfl

/-- Every counting index is in range. -/
theorem inRange64_iota (r : Fin 64) : inRange64 (iotaInDim S64 32 0) (ix1 r) = 1#1 := by
  unfold inRange64
  refine reduce_andi_of_all _ _ _ _ _ rfl fun i _ => ?_
  obtain ⟨r', z, rfl⟩ : ∃ (r' : Fin 64) (z : Fin 1), i = ix2 r' z := ⟨i 0, i 1, eq_ix2 i⟩
  show IntOp.andi (IntOp.cmpi .sge (col64 (iotaInDim S64 32 0) (ix2 r' z)) 0#32)
      (IntOp.cmpi .sle (col64 (iotaInDim S64 32 0) (ix2 r' z)) 63#32) = 1#1
  rw [col64_iota]
  exact (word64 r').2.1

/-- Reading the table at the counting indices returns the table. -/
theorem take64_iota (table : FVec F S64x1024 .f32) (r : Fin 64) (o : Fin 1024) :
    take64 table (iotaInDim S64 32 0) (ix2 r o) = table (ix2 r o) := by
  have hm : broadcastInDim S64x1024 ![0] bcast_S64_S64x1024_0 (inRange64 (iotaInDim S64 32 0)) (ix2 r o) = 1#1 := by
    refine (broadcastInDim_apply _ _ _ (ix2 r o) (ix1 r) fun a => ?_).trans (inRange64_iota r)
    match a with
    | ⟨0, _⟩ => rfl
  have hg : Host.gather gather_S64x1024_S64x1_S64x1024_1_0_n_n_0_1_11024 table (col64 (iotaInDim S64 32 0)) (ix2 r o) = table (ix2 r o) := by
    have hd : gather_S64x1024_S64x1_S64x1024_1_0_n_n_0_1_11024 = rowDims 64 64 1024 gather_S64x1024_S64x1_S64x1024_1_0_n_n_0_1_11024_wf := rfl
    rw [hd, gather_row_apply (by decide)]
    refine congrArg table (congrArg (fun k => ix2 k o) (Fin.ext ?_))
    show min (col64 (iotaInDim S64 32 0) (ix2 r (0 : Fin 1))).toInt.toNat (64 - 1) = r.val
    rw [col64_iota]
    exact (word64 r).2.2
  show Scalar.select _ _ _ = _
  rw [hm, hg, select_one]

/-! ## The table of 512 rows -/

/-- The word facts for every index below 512: as a signed 32-bit word it is not negative (so it is not moved), it lies
    between 0 and 511, and read back as a signed integer and clamped at 511 it is the index itself. -/
theorem word512 : ∀ i : Fin 512,
    Scalar.select (IntOp.cmpi .slt (BitVec.ofNat 32 i.val) 0#32) (IntOp.addi (BitVec.ofNat 32 i.val) 512#32) (BitVec.ofNat 32 i.val)
        = BitVec.ofNat 32 i.val
      ∧ IntOp.andi (IntOp.cmpi .sge (BitVec.ofNat 32 i.val) 0#32) (IntOp.cmpi .sle (BitVec.ofNat 32 i.val) 511#32) = 1#1
      ∧ min (BitVec.ofNat 32 i.val).toInt.toNat (512 - 1) = i.val := by
  decide +kernel

/-- The counting indices are not moved. -/
theorem wrap512_iota (r : Fin 512) : wrap512 (iotaInDim S512 32 0) (ix1 r) = BitVec.ofNat 32 r.val :=
  (word512 r).1

/-- As a column: row `r` holds the word of `r`. -/
theorem col512_iota (r : Fin 512) (z : Fin 1) : col512 (iotaInDim S512 32 0) (ix2 r z) = BitVec.ofNat 32 r.val := by
  unfold col512
  refine (broadcastInDim_apply _ _ _ (ix2 r z) (ix1 r) fun a => ?_).trans (wrap512_iota r)
  match a with
  | ⟨0, _⟩ => rfl

/-- Every counting index is in range. -/
theorem inRange512_iota (r : Fin 512) : inRange512 (iotaInDim S512 32 0) (ix1 r) = 1#1 := by
  unfold inRange512
  refine reduce_andi_of_all _ _ _ _ _ rfl fun i _ => ?_
  obtain ⟨r', z, rfl⟩ : ∃ (r' : Fin 512) (z : Fin 1), i = ix2 r' z := ⟨i 0, i 1, eq_ix2 i⟩
  show IntOp.andi (IntOp.cmpi .sge (col512 (iotaInDim S512 32 0) (ix2 r' z)) 0#32)
      (IntOp.cmpi .sle (col512 (iotaInDim S512 32 0) (ix2 r' z)) 511#32) = 1#1
  rw [col512_iota]
  exact (word512 r').2.1

/-- Reading the table at the counting indices returns the table. -/
theorem take512_iota (table : FVec F S512x1024 .f32) (r : Fin 512) (o : Fin 1024) :
    take512 table (iotaInDim S512 32 0) (ix2 r o) = table (ix2 r o) := by
  have hm : broadcastInDim S512x1024 ![0] bcast_S512_S512x1024_0 (inRange512 (iotaInDim S512 32 0)) (ix2 r o) = 1#1 := by
    refine (broadcastInDim_apply _ _ _ (ix2 r o) (ix1 r) fun a => ?_).trans (inRange512_iota r)
    match a with
    | ⟨0, _⟩ => rfl
  have hg : Host.gather gather_S512x1024_S512x1_S512x1024_1_0_n_n_0_1_11024 table (col512 (iotaInDim S512 32 0)) (ix2 r o) = table (ix2 r o) := by
    have hd : gather_S512x1024_S512x1_S512x1024_1_0_n_n_0_1_11024 = rowDims 512 512 1024 gather_S512x1024_S512x1_S512x1024_1_0_n_n_0_1_11024_wf := rfl
    rw [hd, gather_row_apply (by decide)]
    refine congrArg table (congrArg (fun k => ix2 k o) (Fin.ext ?_))
    show min (col512 (iotaInDim S512 32 0) (ix2 r (0 : Fin 1))).toInt.toNat (512 - 1) = r.val
    rw [col512_iota]
    exact (word512 r).2.2
  show Scalar.select _ _ _ = _
  rw [hm, hg, select_one]

end Cert.ReferenceIdeal.RefTake

end
-- ==== Proof.RefRead.lean ====
/-
  The plain program's composed result, read entry by entry on the extended reals.

  Row r of the merged axis is the pair (time step r / 64, channel r % 64): merging the 512 × 64 grid in row-major order
  puts (t, c) at position t · 64 + c, and the swap before it exchanges the time and channel coordinates. At such an
  entry the four summands are: the contraction Σ_k x[b, c, t, k] · W[o, k]; the bias entry bias[o] (a repeated
  value reads its source at the coordinates it was repeated from); the channel table's entry chan[c, o] — the table
  read at the counting indices is the table itself — times the one-entry gain; and likewise time[t, o] times its gain.
-/
import proofs.«137757_g64484638982276_cont_9to1_m_834_28_alg».proof.Proof.RefDefs
import proofs.«137757_g64484638982276_cont_9to1_m_834_28_alg».proof.Proof.RefTake
import proofs.«137757_g64484638982276_cont_9to1_m_834_28_alg».proof.Proof.Spec
import Idealize.ShloMosaic.Lib.Pipeline.Value
import Idealize.ShloMosaic.PureOps.Ideal.Laws

noncomputable section

namespace Cert.ReferenceIdeal.RefRead

open Cert.ReferenceIdeal Cert.ReferenceIdeal.Gen Idealize.ShloMosaic Idealize.ShloMosaic.ValueIdx
open Cert.ReferenceIdeal.RefDefs Cert.ReferenceIdeal.RefTake

/-- The contraction's dimension numbers: the signal's last axis against the projection's second, the signal's first three
    axes and the projection's first axis free. -/
abbrev D : DotDims S4x64x512x512 S1024x512 S4x64x512x1024 := dot_S4x64x512x512_S1024x512_S4x64x512x1024_3_1_012_0_n_n

/-! ## Which operand entries a contraction term reads -/

theorem lhs_0 (i : S4x64x512x1024.Idx) (q : D.contr.Idx) : (D.lhsIdx i q 0).val = (i 0).val := by
  unfold DotDims.lhsIdx
  rw [dif_neg (show ¬(0 : Fin S4x64x512x512.rank) ∈ D.lhsBatch by decide),
    dif_pos (show (0 : Fin S4x64x512x512.rank) ∈ D.lhsNonContracting by decide)]
  rfl

theorem lhs_1 (i : S4x64x512x1024.Idx) (q : D.contr.Idx) : (D.lhsIdx i q 1).val = (i 1).val := by
  unfold DotDims.lhsIdx
  rw [dif_neg (show ¬(1 : Fin S4x64x512x512.rank) ∈ D.lhsBatch by decide),
    dif_pos (show (1 : Fin S4x64x512x512.rank) ∈ D.lhsNonContracting by decide)]
  rfl

theorem lhs_2 (i : S4x64x512x1024.Idx) (q : D.contr.Idx) : (D.lhsIdx i q 2).val = (i 2).val := by
  unfold DotDims.lhsIdx
  rw [dif_neg (show ¬(2 : Fin S4x64x512x512.rank) ∈ D.lhsBatch by decide),
    dif_pos (show (2 : Fin S4x64x512x512.rank) ∈ D.lhsNonContracting by decide)]
  rfl

theorem lhs_3 (i : S4x64x512x1024.Idx) (q : D.contr.Idx) : (D.lhsIdx i q 3).val = (q ⟨0, by decide⟩).val :=
  D.lhsIdx_val_of_single rfl i q

theorem rhs_0 (i : S4x64x512x1024.Idx) (q : D.contr.Idx) : (D.rhsIdx i q 0).val = (i 3).val := by
  unfold DotDims.rhsIdx
  rw [dif_neg (show ¬(0 : Fin S1024x512.rank) ∈ D.rhsBatch by decide),
    dif_pos (show (0 : Fin S1024x512.rank) ∈ D.rhsNonContracting by decide)]
  rfl

theorem rhs_1 (i : S4x64x512x1024.Idx) (q : D.contr.Idx) : (D.rhsIdx i q 1).val = (q ⟨0, by decide⟩).val :=
  D.rhsIdx_val_of_single rfl i q

/-- The contraction at an entry is the sum over the shared axis. -/
theorem proj_at (x : FVec Ideal S4x64x512x512 .f32) (W : FVec Ideal S1024x512 .f32)
    (b : Fin 4) (c : Fin 64) (t : Fin 512) (o : Fin 1024) :
    proj x W (ix4 b c t o) = ∑ k : Fin 512, x (ix4 b c t k) * W (ix2 o k) := by
  unfold proj
  simp only [Host.dotGeneral]
  rw [Ideal.dotGeneral_apply, ← Equiv.sum_comp (ValueIdx.contrEquiv1 D 512 rfl rfl).symm]
  refine Finset.sum_congr rfl fun k _ => ?_
  have hk := ValueIdx.contrEquiv1_symm_val D 512 rfl rfl k
  have el : D.lhsIdx (ix4 b c t o) ((ValueIdx.contrEquiv1 D 512 rfl rfl).symm k) = ix4 b c t k := funext fun a => Fin.ext (by
    match a with
    | ⟨0, _⟩ => exact lhs_0 _ _
    | ⟨1, _⟩ => exact lhs_1 _ _
    | ⟨2, _⟩ => exact lhs_2 _ _
    | ⟨3, _⟩ => exact (lhs_3 _ _).trans hk)
  have er : D.rhsIdx (ix4 b c t o) ((ValueIdx.contrEquiv1 D 512 rfl rfl).symm k) = ix2 o k := funext fun a => Fin.ext (by
    match a with
    | ⟨0, _⟩ => exact rhs_0 _ _
    | ⟨1, _⟩ => exact (rhs_1 _ _).trans hk)
  rw [el, er]

/-! ## The three repeated terms -/

/-- The bias term at an entry is the bias of its column. -/
theorem bias_at (bias : FVec Ideal S1024 .f32) (b : Fin 4) (c : Fin 64) (t : Fin 512) (o : Fin 1024) :
    biasTerm bias (ix4 b c t o) = bias (ix1 o) := by
  unfold biasTerm
  refine (broadcastInDim_apply _ _ _ (ix4 b c t o) (ix4 (0 : Fin 1) (0 : Fin 1) (0 : Fin 1) o) fun a => ?_).trans ?_
  · match a with
    | ⟨0, _⟩ => rfl
    | ⟨1, _⟩ => rfl
    | ⟨2, _⟩ => rfl
    | ⟨3, _⟩ => rfl
  · refine broadcastInDim_apply _ _ _ _ (ix1 o) fun a => ?_
    match a with
    | ⟨0, _⟩ => rfl

/-- A one-entry gain repeated over a rank-4 array reads its one entry. -/
theorem gain_at {T : Shape} (dims : Fin 4 → Fin T.rank) (h : S1x1x1x1.BroadcastsInDim T dims) (g : FVec Ideal S1 .f32) (j : T.Idx) :
    broadcastInDim T dims h (broadcastInDim S1x1x1x1 ![3] bcast_S1_S1x1x1x1_3 g) j = g (ix1 (0 : Fin 1)) := by
  refine (broadcastInDim_apply _ _ _ j (ix4 (0 : Fin 1) (0 : Fin 1) (0 : Fin 1) (0 : Fin 1)) fun a => ?_).trans ?_
  · match a with
    | ⟨0, _⟩ => rfl
    | ⟨1, _⟩ => rfl
    | ⟨2, _⟩ => rfl
    | ⟨3, _⟩ => rfl
  · refine broadcastInDim_apply _ _ _ _ (ix1 (0 : Fin 1)) fun a => ?_
    match a with
    | ⟨0, _⟩ => rfl

/-- The channel term at an entry is the channel table's entry times the channel gain. -/
theorem chan_at (chan : FVec Ideal S64x1024 .f32) (gc : FVec Ideal S1 .f32) (b : Fin 4) (c : Fin 64) (t : Fin 512) (o : Fin 1024) :
    chanTerm chan gc (ix4 b c t o) = chan (ix2 c o) * gc (ix1 (0 : Fin 1)) := by
  unfold chanTerm
  refine (broadcastInDim_apply _ _ _ (ix4 b c t o) (ix4 (0 : Fin 1) c (0 : Fin 1) o) fun a => ?_).trans ?_
  · match a with
    | ⟨0, _⟩ => rfl
    | ⟨1, _⟩ => rfl
    | ⟨2, _⟩ => rfl
    | ⟨3, _⟩ => rfl
  refine (mulf_apply _ _ _).trans (congrArg₂ (· * ·) ?_ (gain_at _ _ gc _))
  refine (broadcastInDim_apply _ _ _ _ (ix2 c o) fun a => ?_).trans (take64_iota chan c o)
  match a with
  | ⟨0, _⟩ => rfl
  | ⟨1, _⟩ => rfl

/-- The time term at an entry is the time table's entry times the time gain. -/
theorem time_at (time : FVec Ideal S512x1024 .f32) (gt : FVec Ideal S1 .f32) (b : Fin 4) (c : Fin 64) (t : Fin 512) (o : Fin 1024) :
    timeTerm time gt (ix4 b c t o) = time (ix2 t o) * gt (ix1 (0 : Fin 1)) := by
  unfold timeTerm
  refine (broadcastInDim_apply _ _ _ (ix4 b c t o) (ix4 (0 : Fin 1) (0 : Fin 1) t o) fun a => ?_).trans ?_
  · match a with
    | ⟨0, _⟩ => rfl
    | ⟨1, _⟩ => rfl
    | ⟨2, _⟩ => rfl
    | ⟨3, _⟩ => rfl
  refine (mulf_apply _ _ _).trans (congrArg₂ (· * ·) ?_ (gain_at _ _ gt _))
  refine (broadcastInDim_apply _ _ _ _ (ix2 t o) fun a => ?_).trans (take512_iota time t o)
  match a with
  | ⟨0, _⟩ => rfl
  | ⟨1, _⟩ => rfl

/-! ## The result at an entry -/

/-- The sum of the four terms at (batch, channel, time, column), in the grouping the program adds them. -/
theorem core_at (x : FVec Ideal S4x64x512x512 .f32) (W : FVec Ideal S1024x512 .f32) (bias : FVec Ideal S1024 .f32)
    (chan : FVec Ideal S64x1024 .f32) (time : FVec Ideal S512x1024 .f32) (gc gt : FVec Ideal S1 .f32)
    (b : Fin 4) (c : Fin 64) (t : Fin 512) (o : Fin 1024) :
    core x W bias chan time gc gt (ix4 b c t o)
      = (((∑ k : Fin 512, x (ix4 b c t k) * W (ix2 o k)) + bias (ix1 o)) + chan (ix2 c o) * gc (ix1 (0 : Fin 1)))
          + time (ix2 t o) * gt (ix1 (0 : Fin 1)) := by
  unfold core
  rw [addf_apply, addf_apply, addf_apply, proj_at, bias_at, chan_at, time_at]

/-- Entry (b, r, o) of the result is the specified entry at time step r / 64 and channel r % 64. -/
theorem refOut_apply (x : FVec Ideal S4x64x512x512 .f32) (W : FVec Ideal S1024x512 .f32) (bias : FVec Ideal S1024 .f32)
    (chan : FVec Ideal S64x1024 .f32) (time : FVec Ideal S512x1024 .f32) (gc gt : FVec Ideal S1 .f32)
    (b : Fin 4) (r : Fin 32768) (o : Fin 1024) :
    refOut x W bias chan time gc gt (ix3 b r o)
      = Cert.Spec.entry x W bias chan time gc gt b (Cert.Spec.rowTime r) (Cert.Spec.rowChan r) o := by
  unfold refOut
  refine (shapeCast_apply _ _ (ix3 b r o) (ix4 b (Cert.Spec.rowTime r) (Cert.Spec.rowChan r) o) ?_).trans ?_
  · rw [Shape.rowMajor_val_four, Shape.rowMajor_val_three]
    show ((b.val * 512 + r.val / 64) * 64 + r.val % 64) * 1024 + o.val = (b.val * 32768 + r.val) * 1024 + o.val
    omega
  refine (transpose_apply _ _ _ (ix4 b (Cert.Spec.rowTime r) (Cert.Spec.rowChan r) o)
    (ix4 b (Cert.Spec.rowChan r) (Cert.Spec.rowTime r) o) fun a => ?_).trans ?_
  · match a with
    | ⟨0, _⟩ => rfl
    | ⟨1, _⟩ => rfl
    | ⟨2, _⟩ => rfl
    | ⟨3, _⟩ => rfl
  rw [core_at]
  exact Cert.Spec.entry_eq_plain x W bias chan time gc gt b (Cert.Spec.rowTime r) (Cert.Spec.rowChan r) o

/-- The composed result is the specified array. -/
theorem refOut_eq (x : FVec Ideal S4x64x512x512 .f32) (W : FVec Ideal S1024x512 .f32) (bias : FVec Ideal S1024 .f32)
    (chan : FVec Ideal S64x1024 .f32) (time : FVec Ideal S512x1024 .f32) (gc gt : FVec Ideal S1 .f32) :
    refOut x W bias chan time gc gt = Cert.Spec.out x W bias chan time gc gt := by
  funext j
  obtain ⟨b, r, o, rfl⟩ : ∃ (b : Fin 4) (r : Fin 32768) (o : Fin 1024), j = ix3 b r o := ⟨j 0, j 1, j 2, eq_ix3 j⟩
  rw [refOut_apply, Cert.Spec.out_apply]

end Cert.ReferenceIdeal.RefRead

end
-- ==== Proof.RefValue.lean ====
/-
  The plain program's run, stated against the specification: every fair execution from a memory with zero counters
  ends with the result array equal to the specified array of the seven arguments' initial contents, and the arguments
  unchanged. The run gives the result as the fold of the operation list; the fold is the composed term; the composed
  term is the specified array entry by entry.
-/
import proofs.«137757_g64484638982276_cont_9to1_m_834_28_alg».proof.Proof.RefTerm
import proofs.«137757_g64484638982276_cont_9to1_m_834_28_alg».proof.Proof.RefRead

noncomputable section

namespace Cert.ReferenceIdeal.RefValue

open Cert.ReferenceIdeal Cert.ReferenceIdeal.Gen Idealize.ShloMosaic Idealize.ShloMosaic.TcCoe Idealize.SL.Sem

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v21)
          = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      ⟨(h c main_v21).trans ((RefTerm.out_eq _).trans (RefRead.refOut_eq _ _ _ _ _ _ _)),
        (h c main_arg0).trans (RefTerm.arg0_eq _),
        (h c main_arg1).trans (RefTerm.arg1_eq _),
        (h c main_arg2).trans (RefTerm.arg2_eq _),
        (h c main_arg3).trans (RefTerm.arg3_eq _),
        (h c main_arg4).trans (RefTerm.arg4_eq _),
        (h c main_arg5).trans (RefTerm.arg5_eq _),
        (h c main_arg6).trans (RefTerm.arg6_eq _)⟩)
    (RefRun.run_main (F := Ideal) m ρ)

end Cert.ReferenceIdeal.RefValue

end
-- ==== Proof.lean ====
/-
  A projection of a 4 × 64 × 512 × 512 signal onto 1024 columns, plus a bias, a channel embedding and a time embedding,
  each embedding scaled by a one-entry gain, with the rows of the result ordered by (time step, channel):

      out[b, t · 64 + c, o] = ∑ k, x[b, c, t, k] · W[o, k] + bias[o] + gc · chan[c, o] + gt · time[t, o].

  Two programs compute it. The tiled one prepares the transposed projection, gc · chan and bias + gt · time, then in each of
  4 × 8 grid steps swaps a 64-channel × 64-step block of the signal into (step, channel) order, multiplies it by the
  projection and adds the two prepared tables, writing a contiguous block of rows; a final regrouping of rows changes no
  entry. The plain one contracts the whole signal with W, adds the bias, looks each table up at the identity list of row
  numbers (every looked-up row number is in range, so the lookup returns the table itself), scales, adds, transposes
  and regroups. On the extended reals both results are the array `Cert.Spec.out` of the arguments: the sum over k is the
  same sum, and the remaining difference is only the grouping of three additions and the side on which each gain is
  written, where addition is commutative and associative and multiplication commutative. No entry needs to be finite.

  The tiled program read at the word level and at the extended reals is the same text (nothing was rewritten between
  them), and each program leaves its argument arrays untouched.
-/
import proofs.«137757_g64484638982276_cont_9to1_m_834_28_alg».proof.Defs
import proofs.«137757_g64484638982276_cont_9to1_m_834_28_alg».proof.Proof.Gen.Kernel
import proofs.«137757_g64484638982276_cont_9to1_m_834_28_alg».proof.Proof.Gen.Kernel.Frame
import proofs.«137757_g64484638982276_cont_9to1_m_834_28_alg».proof.Proof.Gen.KernelIdeal
import proofs.«137757_g64484638982276_cont_9to1_m_834_28_alg».proof.Proof.Gen.KernelIdeal.Frame
import proofs.«137757_g64484638982276_cont_9to1_m_834_28_alg».proof.Proof.Gen.ReferenceIdeal
import proofs.«137757_g64484638982276_cont_9to1_m_834_28_alg».proof.Proof.Gen.Pre_finite_inputs
import proofs.«137757_g64484638982276_cont_9to1_m_834_28_alg».proof.Proof.KerValue
import proofs.«137757_g64484638982276_cont_9to1_m_834_28_alg».proof.Proof.RefValue
import Idealize.ShloMosaic.Adequacy
import Idealize.ShloMosaic.Init

noncomputable section

namespace Cert.Proof

open Idealize.ShloMosaic Idealize.ShloMosaic.TcCoe Idealize.SL.Sem

/-- The tiled program, read at the word level, terminates and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- So does the plain program: its run, with the result forgotten. -/
theorem frame_referenceIdeal : Cert.frame_ReferenceIdeal := fun m ρ _ =>
  (θ_run Cert.ReferenceIdeal.defs _ _).mono (fun _ h c => (h c).2) (Cert.ReferenceIdeal.RefValue.run m ρ)

/-- Nothing was rewritten between the two readings of the tiled program. -/
theorem preserves : Cert.preserves_Kernel_KernelIdeal := trivial

/-- From memories that agree on the arguments both programs end with the specification's array of those arguments. -/
theorem algebraic : Cert.algebraic_KernelIdeal_ReferenceIdeal := by
  intro m ρ m' ρ' _ hagree
  refine ⟨_, Cert.KernelIdeal.KerValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2.1,
    (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
